-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S2x524288 : Shape := ⟨2, ![2, 524288]⟩
abbrev S4x2 : Shape := ⟨2, ![4, 2]⟩
abbrev S4 : Shape := ⟨1, ![4]⟩
abbrev S2x4 : Shape := ⟨2, ![2, 4]⟩
abbrev S2 : Shape := ⟨1, ![2]⟩
abbrev S1x2 : Shape := ⟨2, ![1, 2]⟩
abbrev S1 : Shape := ⟨1, ![1]⟩
abbrev S16384x8192 : Shape := ⟨2, ![16384, 8192]⟩
abbrev S16384 : Shape := ⟨1, ![16384]⟩
abbrev S32x16384 : Shape := ⟨2, ![32, 16384]⟩
abbrev S32 : Shape := ⟨1, ![32]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S4x2 : S_.BroadcastsInDim S4x2 (![] : Fin 0 → Fin S4x2.rank)
  reducesTo_S4x2_S_d0_1 : S4x2.ReducesTo [0, 1] S_
  bcast_S_S4 : S_.BroadcastsInDim S4 (![] : Fin 0 → Fin S4.rank)
  reducesTo_S4_S_d0 : S4.ReducesTo [0] S_
  bcast_S_S2x4 : S_.BroadcastsInDim S2x4 (![] : Fin 0 → Fin S2x4.rank)
  reducesTo_S2x4_S_d0_1 : S2x4.ReducesTo [0, 1] S_
  bcast_S_S2 : S_.BroadcastsInDim S2 (![] : Fin 0 → Fin S2.rank)
  reducesTo_S2_S_d0 : S2.ReducesTo [0] S_
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_
  bcast_S_S16384x8192 : S_.BroadcastsInDim S16384x8192 (![] : Fin 0 → Fin S16384x8192.rank)
  reducesTo_S16384x8192_S_d0_1 : S16384x8192.ReducesTo [0, 1] S_
  bcast_S_S16384 : S_.BroadcastsInDim S16384 (![] : Fin 0 → Fin S16384.rank)
  reducesTo_S16384_S_d0 : S16384.ReducesTo [0] S_
  bcast_S_S32x16384 : S_.BroadcastsInDim S32x16384 (![] : Fin 0 → Fin S32x16384.rank)
  reducesTo_S32x16384_S_d0_1 : S32x16384.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg8 : FVec F S16384x8192 .f32) (main_arg9 : FVec F S16384 .f32) (main_arg10 : FVec F S32x16384 .f32) (main_arg11 : FVec F S32 .f32) (main_v33 : IVec S_ 1) : IVec S_ 1 :=
  let main_v34 : FVec F S16384x8192 .f32 := Host.absf main_arg8
  let main_cst_12 : FVec F S_ .f32 := constant S_ .f32 0x7F800000#32
  let main_v35 : FVec F S16384x8192 .f32 := broadcastInDim S16384x8192 ![] bcast_S_S16384x8192 main_cst_12
  let main_v36 : IVec S16384x8192 1 := cmpf .olt main_v34 main_v35
  let main_c_13 : IVec S_ 1 := constantI S_ 1 1#1
  let main_v37 : IVec S_ 1 := (fun x v => Host.reduce IntOp.andi x v reducesTo_S16384x8192_S_d0_1 h_S_) main_v36 main_c_13
  let main_v38 : IVec S_ 1 := andi main_v33 main_v37
  let main_v39 : FVec F S16384 .f32 := Host.absf main_arg9
  let main_cst_14 : FVec F S_ .f32 := constant S_ .f32 0x7F800000#32
  let main_v40 : FVec F S16384 .f32 := broadcastInDim S16384 ![] bcast_S_S16384 main_cst_14
  let main_v41 : IVec S16384 1 := cmpf .olt main_v39 main_v40
  let main_c_15 : IVec S_ 1 := constantI S_ 1 1#1
  let main_v42 : IVec S_ 1 := (fun x v => Host.reduce IntOp.andi x v reducesTo_S16384_S_d0 h_S_) main_v41 main_c_15
  let main_v43 : IVec S_ 1 := andi main_v38 main_v42
  let main_v44 : FVec F S32x16384 .f32 := Host.absf main_arg10
  let main_cst_16 : FVec F S_ .f32 := constant S_ .f32 0x7F800000#32
  let main_v45 : FVec F S32x16384 .f32 := broadcastInDim S32x16384 ![] bcast_S_S32x16384 main_cst_16
  let main_v46 : IVec S32x16384 1 := cmpf .olt main_v44 main_v45
  let main_c_17 : IVec S_ 1 := constantI S_ 1 1#1
  let main_v47 : IVec S_ 1 := (fun x v => Host.reduce IntOp.andi x v reducesTo_S32x16384_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg5 : FVec F S2 .f32) (main_arg6 : FVec F S1x2 .f32) (main_arg7 : FVec F S1 .f32) (main_arg8 : FVec F S16384x8192 .f32) (main_arg9 : FVec F S16384 .f32) (main_arg10 : FVec F S32x16384 .f32) (main_arg11 : FVec F S32 .f32) (main_v13 : IVec S_ 1) (main_v16 : IVec S2x4 1) : IVec S_ 1 :=
  let main_c_5 : IVec S_ 1 := constantI S_ 1 1#1
  let main_v17 : IVec S_ 1 := (fun x v => Host.reduce IntOp.andi x v reducesTo_S2x4_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S1x2 .f32 := Host.absf main_arg6
  let main_cst_8 : FVec F S_ .f32 := constant S_ .f32 0x7F800000#32
  let main_v25 : FVec F S1x2 .f32 := broadcastInDim S1x2 ![] bcast_S_S1x2 main_cst_8
  let main_v26 : IVec S1x2 1 := cmpf .olt main_v24 main_v25
  let main_c_9 : IVec S_ 1 := constantI S_ 1 1#1
  let main_v27 : IVec S_ 1 := (fun x v => Host.reduce IntOp.andi x v reducesTo_S1x2_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S8192x2 .f32) (main_arg1 : IVec S2x524288 32) (main_arg2 : FVec F S4x2 .f32) (main_arg3 : FVec F S4 .f32) (main_arg4 : FVec F S2x4 .f32) (main_arg5 : FVec F S2 .f32) (main_arg6 : FVec F S1x2 .f32) (main_arg7 : FVec F S1 .f32) (main_arg8 : FVec F S16384x8192 .f32) (main_arg9 : FVec F S16384 .f32) (main_arg10 : FVec F S32x16384 .f32) (main_arg11 : FVec F S32 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S4x2 .f32 := Host.absf main_arg2
  let main_cst_0 : FVec F S_ .f32 := constant S_ .f32 0x7F800000#32
  let main_v5 : FVec F S4x2 .f32 := broadcastInDim S4x2 ![] bcast_S_S4x2 main_cst_0
  let main_v6 : IVec S4x2 1 := cmpf .olt main_v4 main_v5
  let main_c_1 : IVec S_ 1 := constantI S_ 1 1#1
  let main_v7 : IVec S_ 1 := (fun x v => Host.reduce IntOp.andi x v reducesTo_S4x2_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S2x4 .f32 := Host.absf main_arg4
  let main_cst_4 : FVec F S_ .f32 := constant S_ .f32 0x7F800000#32
  let main_v15 : FVec F S2x4 .f32 := broadcastInDim S2x4 ![] bcast_S_S2x4 main_cst_4
  let main_v16 : IVec S2x4 1 := cmpf .olt main_v14 main_v15
  fn_part1 (F := F) main_arg5 main_arg6 main_arg7 main_arg8 main_arg9 main_arg10 main_arg11 main_v13 main_v16
-- ==== Kernel.lean ====
abbrev S8192x2 : Shape := ⟨2, ![8192, 2]⟩
abbrev S2x524288 : Shape := ⟨2, ![2, 524288]⟩
abbrev S4x2 : Shape := ⟨2, ![4, 2]⟩
abbrev S4 : Shape := ⟨1, ![4]⟩
abbrev S2x4 : Shape := ⟨2, ![2, 4]⟩
abbrev S2 : Shape := ⟨1, ![2]⟩
abbrev S1x2 : Shape := ⟨2, ![1, 2]⟩
abbrev S1 : Shape := ⟨1, ![1]⟩
abbrev S16384x8192 : Shape := ⟨2, ![16384, 8192]⟩
abbrev S16384 : Shape := ⟨1, ![16384]⟩
abbrev S32x16384 : Shape := ⟨2, ![32, 16384]⟩
abbrev S32 : Shape := ⟨1, ![32]⟩
abbrev S1x524288 : Shape := ⟨2, ![1, 524288]⟩
abbrev S524288 : Shape := ⟨1, ![524288]⟩
abbrev S8192 : Shape := ⟨1, ![8192]⟩
abbrev S532480 : Shape := ⟨1, ![532480]⟩
abbrev S_ : Shape := ⟨0, ![]⟩
abbrev S532480x1 : Shape := ⟨2, ![532480, 1]⟩
abbrev S8192x4 : Shape := ⟨2, ![8192, 4]⟩
abbrev S532480x4 : Shape := ⟨2, ![532480, 4]⟩
abbrev S1x4 : Shape := ⟨2, ![1, 4]⟩
abbrev S532480x2 : Shape := ⟨2, ![532480, 2]⟩
abbrev S2x1 : Shape := ⟨2, ![2, 1]⟩
abbrev S8192x1 : Shape := ⟨2, ![8192, 1]⟩
abbrev S1x1 : Shape := ⟨2, ![1, 1]⟩
abbrev S1x8192 : Shape := ⟨2, ![1, 8192]⟩
abbrev S1x16384 : Shape := ⟨2, ![1, 16384]⟩
abbrev S2x1x32 : Shape := ⟨3, ![2, 1, 32]⟩
abbrev S256x8192 : Shape := ⟨2, ![256, 8192]⟩
abbrev S1x256 : Shape := ⟨2, ![1, 256]⟩
abbrev S32x256 : Shape := ⟨2, ![32, 256]⟩
abbrev S1x1x32 : Shape := ⟨3, ![1, 1, 32]⟩
abbrev S1x32 : Shape := ⟨2, ![1, 32]⟩

abbrev nBuf : Space → Nat
  | .hbm => 130
  | .vmem => 10
  | .smem => 0
  | _ => 0

abbrev hbmTy0_0 (i : Nat) : BufTy := match i % 128 with
  | 0 => ⟨S8192x2, .f32⟩
  | 1 => ⟨S2x524288, .i32⟩
  | 2 => ⟨S4x2, .f32⟩
  | 3 => ⟨S4, .f32⟩
  | 4 => ⟨S2x4, .f32⟩
  | 5 => ⟨S2, .f32⟩
  | 6 => ⟨S1x2, .f32⟩
  | 7 => ⟨S1, .f32⟩
  | 8 => ⟨S16384x8192, .f32⟩
  | 9 => ⟨S16384, .f32⟩
  | 10 => ⟨S32x16384, .f32⟩
  | 11 => ⟨S32, .f32⟩
  | 12 => ⟨S1x524288, .i32⟩
  | 13 => ⟨S524288, .i32⟩
  | 14 => ⟨S1x524288, .i32⟩
  | 15 => ⟨S524288, .i32⟩
  | 16 => ⟨S8192, .i32⟩
  | 17 => ⟨S532480, .i32⟩
  | 18 => ⟨S532480, .i32⟩
  | 19 => ⟨S_, .f32⟩
  | 20 => ⟨S532480, .f32⟩
  | 21 => ⟨S_, .f32⟩
  | 22 => ⟨S8192, .f32⟩
  | 23 => ⟨S532480x1, .i32⟩
  | 24 => ⟨S8192, .f32⟩
  | 25 => ⟨S_, .f32⟩
  | 26 => ⟨S8192, .f32⟩
  | 27 => ⟨S8192, .i1⟩
  | 28 => ⟨S8192, .f32⟩
  | 29 => ⟨S_, .f32⟩
  | 30 => ⟨S8192, .f32⟩
  | 31 => ⟨S8192, .f32⟩
  | 32 => ⟨S_, .i32⟩
  | 33 => ⟨S532480, .i32⟩
  | 34 => ⟨S532480, .i1⟩
  | 35 => ⟨S_, .i32⟩
  | 36 => ⟨S532480, .i32⟩
  | 37 => ⟨S532480, .i32⟩
  | 38 => ⟨S532480, .i32⟩
  | 39 => ⟨S532480x1, .i32⟩
  | 40 => ⟨S532480, .f32⟩
  | 41 => ⟨S_, .i32⟩
  | 42 => ⟨S532480, .i32⟩
  | 43 => ⟨S532480, .i1⟩
  | 44 => ⟨S_, .i32⟩
  | 45 => ⟨S532480, .i32⟩
  | 46 => ⟨S532480, .i32⟩
  | 47 => ⟨S532480, .i32⟩
  | 48 => ⟨S532480x1, .i32⟩
  | 49 => ⟨S532480, .f32⟩
  | 50 => ⟨S532480, .f32⟩
  | 51 => ⟨S2x4, .f32⟩
  | 52 => ⟨S8192x4, .f32⟩
  | 53 => ⟨S532480x1, .f32⟩
  | 54 => ⟨S_, .i32⟩
  | 55 => ⟨S532480, .i32⟩
  | 56 => ⟨S532480, .i1⟩
  | 57 => ⟨S_, .i32⟩
  | 58 => ⟨S532480, .i32⟩
  | 59 => ⟨S532480, .i32⟩
  | 60 => ⟨S532480, .i32⟩
  | 61 => ⟨S532480x1, .i32⟩
  | 62 => ⟨S532480x4, .f32⟩
  | 63 => ⟨S532480x4, .f32⟩
  | 64 => ⟨S532480x4, .f32⟩
  | 65 => ⟨S_, .f32⟩
  | 66 => ⟨S8192x4, .f32⟩
  | 67 => ⟨S532480x1, .i32⟩
  | 68 => ⟨S8192x4, .f32⟩
  | 69 => ⟨S1x4, .f32⟩
  | 70 => ⟨S8192x4, .f32⟩
  | 71 => ⟨S8192x4, .f32⟩
  | 72 => ⟨S_, .f32⟩
  | 73 => ⟨S8192x4, .f32⟩
  | 74 => ⟨S8192x4, .f32⟩
  | 75 => ⟨S4x2, .f32⟩
  | 76 => ⟨S8192x2, .f32⟩
  | 77 => ⟨S532480x1, .f32⟩
  | 78 => ⟨S_, .i32⟩
  | 79 => ⟨S532480, .i32⟩
  | 80 => ⟨S532480, .i1⟩
  | 81 => ⟨S_, .i32⟩
  | 82 => ⟨S532480, .i32⟩
  | 83 => ⟨S532480, .i32⟩
  | 84 => ⟨S532480, .i32⟩
  | 85 => ⟨S532480x1, .i32⟩
  | 86 => ⟨S532480x2, .f32⟩
  | 87 => ⟨S532480x2, .f32⟩
  | 88 => ⟨S532480x2, .f32⟩
  | 89 => ⟨S_, .f32⟩
  | 90 => ⟨S8192x2, .f32⟩
  | 91 => ⟨S532480x1, .i32⟩
  | 92 => ⟨S8192x2, .f32⟩
  | 93 => ⟨S1x2, .f32⟩
  | 94 => ⟨S8192x2, .f32⟩
  | 95 => ⟨S8192x2, .f32⟩
  | 96 => ⟨S_, .f32⟩
  | 97 => ⟨S8192x2, .f32⟩
  | 98 => ⟨S8192x2, .f32⟩
  | 99 => ⟨S2x1, .f32⟩
  | 100 => ⟨S8192x1, .f32⟩
  | 101 => ⟨S532480x1, .f32⟩
  | 102 => ⟨S_, .i32⟩
  | 103 => ⟨S532480, .i32⟩
  | 104 => ⟨S532480, .i1⟩
  | 105 => ⟨S_, .i32⟩
  | 106 => ⟨S532480, .i32⟩
  | 107 => ⟨S532480, .i32⟩
  | 108 => ⟨S532480, .i32⟩
  | 109 => ⟨S532480x1, .i32⟩
  | 110 => ⟨S532480x1, .f32⟩
  | 111 => ⟨S532480x1, .f32⟩
  | 112 => ⟨S_, .f32⟩
  | 113 => ⟨S8192x1, .f32⟩
  | 114 => ⟨S532480x1, .i32⟩
  | 115 => ⟨S8192x1, .f32⟩
  | 116 => ⟨S1x1, .f32⟩
  | 117 => ⟨S8192x1, .f32⟩
  | 118 => ⟨S8192x1, .f32⟩
  | 119 => ⟨S1x8192, .f32⟩
  | 120 => ⟨S1x16384, .f32⟩
  | 121 => ⟨S2x1x32, .f32⟩
  | 122 => ⟨S1x1x32, .f32⟩
  | 123 => ⟨S1x32, .f32⟩
  | 124 => ⟨S1x1x32, .f32⟩
  | 125 => ⟨S1x32, .f32⟩
  | 126 => ⟨S1x32, .f32⟩
  | 127 => ⟨S1x32, .f32⟩
  | _ => ⟨S8192x2, .f32⟩

abbrev hbmTy0_1 (i : Nat) : BufTy := match i % 128 with
  | 0 => ⟨S1x32, .f32⟩
  | 1 => ⟨S1x32, .f32⟩
  | _ => ⟨S8192x2, .f32⟩

abbrev hbmTy (i : Nat) : BufTy := match i / 128 with
  | 0 => hbmTy0_0 i
  | 1 => hbmTy0_1 i
  | _ => ⟨S8192x2, .f32⟩

abbrev bufTy : (tb : Table) → Fin (tcTables nBuf tb) → BufTy
  | .hbm, ⟨i, _⟩ => hbmTy i
  | .local _ .vmem, ⟨0, _⟩ => ⟨S1x8192, .f32⟩
  | .local _ .vmem, ⟨1, _⟩ => ⟨S256x8192, .f32⟩
  | .local _ .vmem, ⟨2, _⟩ => ⟨S256x8192, .f32⟩
  | .local _ .vmem, ⟨3, _⟩ => ⟨S1x256, .f32⟩
  | .local _ .vmem, ⟨4, _⟩ => ⟨S1x256, .f32⟩
  | .local _ .vmem, ⟨5, _⟩ => ⟨S32x256, .f32⟩
  | .local _ .vmem, ⟨6, _⟩ => ⟨S32x256, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call2_cst : Ref sig .tc := ⟨.hbm, 96, rfl⟩
abbrev main_call2_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S8192_S532480_d0 : Shape.Concatenates [S524288, S8192] S532480 0
  bcast_S_S532480 : S_.BroadcastsInDim S532480 (![] : Fin 0 → Fin S532480.rank)
  bcast_S_S8192 : S_.BroadcastsInDim S8192 (![] : Fin 0 → Fin S8192.rank)
  bcast_S532480_S532480x1_0 : S532480.BroadcastsInDim S532480x1 (![0] : Fin 1 → Fin S532480x1.rank)
  transposes_S4x2_S2x4_1_0 : S4x2.Transposes [1, 0] S2x4
  bcast_S532480x1_S532480x4_0_1 : S532480x1.BroadcastsInDim S532480x4 (![0, 1] : Fin 2 → Fin S532480x4.rank)
  bcast_S_S8192x4 : S_.BroadcastsInDim S8192x4 (![] : Fin 0 → Fin S8192x4.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  transposes_S2x4_S4x2_1_0 : S2x4.Transposes [1, 0] S4x2
  bcast_S532480x1_S532480x2_0_1 : S532480x1.BroadcastsInDim S532480x2 (![0, 1] : Fin 2 → Fin S532480x2.rank)
  bcast_S_S8192x2 : S_.BroadcastsInDim S8192x2 (![] : Fin 0 → Fin S8192x2.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  transposes_S1x2_S2x1_1_0 : S1x2.Transposes [1, 0] S2x1
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S1x8192 : S8192x1.ShapeCasts S1x8192
  shapeCasts_S16384_S1x16384 : S16384.ShapeCasts S1x16384
  inb_S1x1x32_S1x1x32_0_0_0 : ∀ a, (![0, 0, 0] : Fin 3 → Nat) a + S1x1x32.size a ≤ S1x1x32.size a
  h_S1x1x32 : 0 < S1x1x32.numel
  shapeCasts_S1x1x32_S1x1x32 : S1x1x32.ShapeCasts S1x1x32
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S32x256_S32x256_0_0 : ∀ a, (![0, 0] : Fin 2 → Nat) a + S32x256.size a ≤ S32x256.size a
  h_S32x256 : 0 < S32x256.numel
  shapeCasts_S1x32_S1x1x32 : S1x32.ShapeCasts S1x1x32
  slices_S2x1x32_S1x1x32_0_0_0 : S2x1x32.Slices ![0, 0, 0] S1x1x32
  shapeCasts_S1x1x32_S1x32 : S1x1x32.ShapeCasts S1x32
  slices_S2x1x32_S1x1x32_1_0_0 : S2x1x32.Slices ![1, 0, 0] S1x1x32
  shapeCasts_S32_S1x32 : S32.ShapeCasts S1x32
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  dot_S8192x2_S2x4_S8192x4_1_0_0_1_n_n_wf : DotDims.WF S8192x2 S2x4 S8192x4 [1] [0] [0] [1] [] []
  gather_S8192x4_S532480x1_S532480x4_1_0_n_n_0_1_14_wf : GatherDims.WF S8192x4 S532480x1 S532480x4 [1] [0] [] [0] [] 1 ![1, 4]
  scatter_S8192x4_S532480x1_S532480x4_1_0_0_1_wf : ScatterDims.WF S8192x4 S532480x1 S532480x4 [1] [0] [0] 1
  dot_S8192x4_S4x2_S8192x2_1_0_0_1_n_n_wf : DotDims.WF S8192x4 S4x2 S8192x2 [1] [0] [0] [1] [] []
  gather_S8192x2_S532480x1_S532480x2_1_0_n_n_0_1_12_wf : GatherDims.WF S8192x2 S532480x1 S532480x2 [1] [0] [] [0] [] 1 ![1, 2]
  scatter_S8192x2_S532480x1_S532480x2_1_0_0_1_wf : ScatterDims.WF S8192x2 S532480x1 S532480x2 [1] [0] [0] 1
  dot_S8192x2_S2x1_S8192x1_1_0_0_1_n_n_wf : DotDims.WF S8192x2 S2x1 S8192x1 [1] [0] [0] [1] [] []
  gather_S8192x1_S532480x1_S532480x1_1_0_n_n_0_1_11_wf : GatherDims.WF S8192x1 S532480x1 S532480x1 [1] [0] [] [0] [] 1 ![1, 1]
  scatter_S8192x1_S532480x1_S532480x1_1_0_0_1_wf : ScatterDims.WF S8192x1 S532480x1 S532480x1 [1] [0] [0] 1
  dot_S1x8192_S256x8192_S1x256_1_1_0_0_n_n_wf : DotDims.WF S1x8192 S256x8192 S1x256 [1] [1] [0] [0] [] []
  dot_S1x256_S32x256_S1x32_1_1_0_0_n_n_wf : DotDims.WF S1x256 S32x256 S1x32 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S16384x8192.size a
  hwx0_1 : ∀ i : grid0.Coords, EltTy.bits .f32 = 32 ∨ (Rect.block (s := S16384x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x16384.size a
  hwx0_2 : ∀ i : grid0.Coords, EltTy.bits .f32 = 32 ∨ (Rect.block (s := S1x16384) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x16384.size a
  hwx0_3 : ∀ i : grid0.Coords, EltTy.bits .f32 = 32 ∨ (Rect.block (s := S32x16384) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S2x1x32.size a
  hwx0_4 : ∀ i : grid0.Coords, EltTy.bits .f32 = 32 ∨ (Rect.block (s := S2x1x32) S1x1x32.size (cc0_transform_4 i) (hinb0_4 i)).WholeWords (EltTy.packing .f32)

variable [Facts₀]

def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def dot_S8192x2_S2x4_S8192x4_1_0_0_1_n_n : DotDims S8192x2 S2x4 S8192x4 where
  lhsContracting := [1]
  rhsContracting := [0]
  lhsNonContracting := [0]
  rhsNonContracting := [1]
  lhsBatch := []
  rhsBatch := []
  wf := dot_S8192x2_S2x4_S8192x4_1_0_0_1_n_n_wf
def gather_S8192x4_S532480x1_S532480x4_1_0_n_n_0_1_14 : GatherDims S8192x4 S532480x1 S532480x4 where
  offsetDims := [1]
  collapsedSliceDims := [0]
  operandBatchingDims := []
  startIndicesBatchingDims := []
  startIndexMap := [0]
  indexVectorDim := 1
  sliceSizes := ![1, 4]
  wf := gather_S8192x4_S532480x1_S532480x4_1_0_n_n_0_1_14_wf
def scatter_S8192x4_S532480x1_S532480x4_1_0_0_1 : ScatterDims S8192x4 S532480x1 S532480x4 where
  updateWindowDims := [1]
  insertedWindowDims := [0]
  scatterDimsToOperandDims := [0]
  indexVectorDim := 1
  wf := scatter_S8192x4_S532480x1_S532480x4_1_0_0_1_wf
def dot_S8192x4_S4x2_S8192x2_1_0_0_1_n_n : DotDims S8192x4 S4x2 S8192x2 where
  lhsContracting := [1]
  rhsContracting := [0]
  lhsNonContracting := [0]
  rhsNonContracting := [1]
  lhsBatch := []
  rhsBatch := []
  wf := dot_S8192x4_S4x2_S8192x2_1_0_0_1_n_n_wf
def gather_S8192x2_S532480x1_S532480x2_1_0_n_n_0_1_12 : GatherDims S8192x2 S532480x1 S532480x2 where
  offsetDims := [1]
  collapsedSliceDims := [0]
  operandBatchingDims := []
  startIndicesBatchingDims := []
  startIndexMap := [0]
  indexVectorDim := 1
  sliceSizes := ![1, 2]
  wf := gather_S8192x2_S532480x1_S532480x2_1_0_n_n_0_1_12_wf
def scatter_S8192x2_S532480x1_S532480x2_1_0_0_1 : ScatterDims S8192x2 S532480x1 S532480x2 where
  updateWindowDims := [1]
  insertedWindowDims := [0]
  scatterDimsToOperandDims := [0]
  indexVectorDim := 1
  wf := scatter_S8192x2_S532480x1_S532480x2_1_0_0_1_wf
def dot_S8192x2_S2x1_S8192x1_1_0_0_1_n_n : DotDims S8192x2 S2x1 S8192x1 where
  lhsContracting := [1]
  rhsContracting := [0]
  lhsNonContracting := [0]
  rhsNonContracting := [1]
  lhsBatch := []
  rhsBatch := []
  wf := dot_S8192x2_S2x1_S8192x1_1_0_0_1_n_n_wf
def gather_S8192x1_S532480x1_S532480x1_1_0_n_n_0_1_11 : GatherDims S8192x1 S532480x1 S532480x1 where
  offsetDims := [1]
  collapsedSliceDims := [0]
  operandBatchingDims := []
  startIndicesBatchingDims := []
  startIndexMap := [0]
  indexVectorDim := 1
  sliceSizes := ![1, 1]
  wf := gather_S8192x1_S532480x1_S532480x1_1_0_n_n_0_1_11_wf
def scatter_S8192x1_S532480x1_S532480x1_1_0_0_1 : ScatterDims S8192x1 S532480x1 S532480x1 where
  updateWindowDims := [1]
  insertedWindowDims := [0]
  scatterDimsToOperandDims := [0]
  indexVectorDim := 1
  wf := scatter_S8192x1_S532480x1_S532480x1_1_0_0_1_wf
def dot_S1x8192_S256x8192_S1x256_1_1_0_0_n_n : DotDims S1x8192 S256x8192 S1x256 where
  lhsContracting := [1]
  rhsContracting := [1]
  lhsNonContracting := [0]
  rhsNonContracting := [0]
  lhsBatch := []
  rhsBatch := []
  wf := dot_S1x8192_S256x8192_S1x256_1_1_0_0_n_n_wf
def dot_S1x256_S32x256_S1x32_1_1_0_0_n_n : DotDims S1x256 S32x256 S1x32 where
  lhsContracting := [1]
  rhsContracting := [1]
  lhsNonContracting := [0]
  rhsNonContracting := [0]
  lhsBatch := []
  rhsBatch := []
  wf := dot_S1x256_S32x256_S1x32_1_1_0_0_n_n_wf

abbrev win0_0 : Pipeline.Window sig grid0 :=
  Pipeline.Window.ofSpec (Memref.whole main_v86) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v87) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v88) S1x1x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2 : Shape := ⟨2, ![8192, 2]⟩
abbrev S2x524288 : Shape := ⟨2, ![2, 524288]⟩
abbrev S4x2 : Shape := ⟨2, ![4, 2]⟩
abbrev S4 : Shape := ⟨1, ![4]⟩
abbrev S2x4 : Shape := ⟨2, ![2, 4]⟩
abbrev S2 : Shape := ⟨1, ![2]⟩
abbrev S1x2 : Shape := ⟨2, ![1, 2]⟩
abbrev S1 : Shape := ⟨1, ![1]⟩
abbrev S16384x8192 : Shape := ⟨2, ![16384, 8192]⟩
abbrev S16384 : Shape := ⟨1, ![16384]⟩
abbrev S32x16384 : Shape := ⟨2, ![32, 16384]⟩
abbrev S32 : Shape := ⟨1, ![32]⟩
abbrev S1x524288 : Shape := ⟨2, ![1, 524288]⟩
abbrev S524288 : Shape := ⟨1, ![524288]⟩
abbrev S8192 : Shape := ⟨1, ![8192]⟩
abbrev S532480 : Shape := ⟨1, ![532480]⟩
abbrev S_ : Shape := ⟨0, ![]⟩
abbrev S532480x1 : Shape := ⟨2, ![532480, 1]⟩
abbrev S8192x4 : Shape := ⟨2, ![8192, 4]⟩
abbrev S532480x4 : Shape := ⟨2, ![532480, 4]⟩
abbrev S1x4 : Shape := ⟨2, ![1, 4]⟩
abbrev S532480x2 : Shape := ⟨2, ![532480, 2]⟩
abbrev S2x1 : Shape := ⟨2, ![2, 1]⟩
abbrev S8192x1 : Shape := ⟨2, ![8192, 1]⟩
abbrev S1x1 : Shape := ⟨2, ![1, 1]⟩
abbrev S1x8192 : Shape := ⟨2, ![1, 8192]⟩
abbrev S8192x16384 : Shape := ⟨2, ![8192, 16384]⟩
abbrev S1x16384 : Shape := ⟨2, ![1, 16384]⟩
abbrev S16384x32 : Shape := ⟨2, ![16384, 32]⟩
abbrev S1x32 : Shape := ⟨2, ![1, 32]⟩

abbrev nBuf : Space → Nat
  | .hbm => 200
  | .vmem => 0
  | .smem => 0
  | _ => 0

abbrev hbmTy0_0 (i : Nat) : BufTy := match i % 128 with
  | 0 => ⟨S8192x2, .f32⟩
  | 1 => ⟨S2x524288, .i32⟩
  | 2 => ⟨S4x2, .f32⟩
  | 3 => ⟨S4, .f32⟩
  | 4 => ⟨S2x4, .f32⟩
  | 5 => ⟨S2, .f32⟩
  | 6 => ⟨S1x2, .f32⟩
  | 7 => ⟨S1, .f32⟩
  | 8 => ⟨S16384x8192, .f32⟩
  | 9 => ⟨S16384, .f32⟩
  | 10 => ⟨S32x16384, .f32⟩
  | 11 => ⟨S32, .f32⟩
  | 12 => ⟨S1x524288, .i32⟩
  | 13 => ⟨S524288, .i32⟩
  | 14 => ⟨S1x524288, .i32⟩
  | 15 => ⟨S524288, .i32⟩
  | 16 => ⟨S8192, .i32⟩
  | 17 => ⟨S532480, .i32⟩
  | 18 => ⟨S532480, .i32⟩
  | 19 => ⟨S_, .f32⟩
  | 20 => ⟨S532480, .f32⟩
  | 21 => ⟨S_, .f32⟩
  | 22 => ⟨S8192, .f32⟩
  | 23 => ⟨S532480x1, .i32⟩
  | 24 => ⟨S8192, .f32⟩
  | 25 => ⟨S_, .f32⟩
  | 26 => ⟨S8192, .f32⟩
  | 27 => ⟨S8192, .i1⟩
  | 28 => ⟨S8192, .f32⟩
  | 29 => ⟨S_, .f32⟩
  | 30 => ⟨S8192, .f32⟩
  | 31 => ⟨S8192, .f32⟩
  | 32 => ⟨S_, .i32⟩
  | 33 => ⟨S532480, .i32⟩
  | 34 => ⟨S532480, .i1⟩
  | 35 => ⟨S_, .i32⟩
  | 36 => ⟨S532480, .i32⟩
  | 37 => ⟨S532480, .i32⟩
  | 38 => ⟨S532480, .i32⟩
  | 39 => ⟨S532480x1, .i32⟩
  | 40 => ⟨S532480, .f32⟩
  | 41 => ⟨S_, .i32⟩
  | 42 => ⟨S532480, .i32⟩
  | 43 => ⟨S532480, .i1⟩
  | 44 => ⟨S_, .i32⟩
  | 45 => ⟨S532480, .i32⟩
  | 46 => ⟨S532480, .i32⟩
  | 47 => ⟨S532480, .i32⟩
  | 48 => ⟨S532480x1, .i32⟩
  | 49 => ⟨S532480, .f32⟩
  | 50 => ⟨S532480, .f32⟩
  | 51 => ⟨S2x4, .f32⟩
  | 52 => ⟨S8192x4, .f32⟩
  | 53 => ⟨S532480x1, .f32⟩
  | 54 => ⟨S_, .i32⟩
  | 55 => ⟨S532480, .i32⟩
  | 56 => ⟨S532480, .i1⟩
  | 57 => ⟨S_, .i32⟩
  | 58 => ⟨S532480, .i32⟩
  | 59 => ⟨S532480, .i32⟩
  | 60 => ⟨S532480, .i32⟩
  | 61 => ⟨S532480x1, .i32⟩
  | 62 => ⟨S532480x4, .f32⟩
  | 63 => ⟨S532480x4, .f32⟩
  | 64 => ⟨S532480x4, .f32⟩
  | 65 => ⟨S_, .f32⟩
  | 66 => ⟨S8192x4, .f32⟩
  | 67 => ⟨S532480x1, .i32⟩
  | 68 => ⟨S8192x4, .f32⟩
  | 69 => ⟨S1x4, .f32⟩
  | 70 => ⟨S8192x4, .f32⟩
  | 71 => ⟨S8192x4, .f32⟩
  | 72 => ⟨S_, .f32⟩
  | 73 => ⟨S8192x4, .f32⟩
  | 74 => ⟨S8192x4, .f32⟩
  | 75 => ⟨S8192, .i32⟩
  | 76 => ⟨S532480, .i32⟩
  | 77 => ⟨S532480, .i32⟩
  | 78 => ⟨S_, .f32⟩
  | 79 => ⟨S532480, .f32⟩
  | 80 => ⟨S_, .f32⟩
  | 81 => ⟨S8192, .f32⟩
  | 82 => ⟨S532480x1, .i32⟩
  | 83 => ⟨S8192, .f32⟩
  | 84 => ⟨S_, .f32⟩
  | 85 => ⟨S8192, .f32⟩
  | 86 => ⟨S8192, .i1⟩
  | 87 => ⟨S8192, .f32⟩
  | 88 => ⟨S_, .f32⟩
  | 89 => ⟨S8192, .f32⟩
  | 90 => ⟨S8192, .f32⟩
  | 91 => ⟨S_, .i32⟩
  | 92 => ⟨S532480, .i32⟩
  | 93 => ⟨S532480, .i1⟩
  | 94 => ⟨S_, .i32⟩
  | 95 => ⟨S532480, .i32⟩
  | 96 => ⟨S532480, .i32⟩
  | 97 => ⟨S532480, .i32⟩
  | 98 => ⟨S532480x1, .i32⟩
  | 99 => ⟨S532480, .f32⟩
  | 100 => ⟨S_, .i32⟩
  | 101 => ⟨S532480, .i32⟩
  | 102 => ⟨S532480, .i1⟩
  | 103 => ⟨S_, .i32⟩
  | 104 => ⟨S532480, .i32⟩
  | 105 => ⟨S532480, .i32⟩
  | 106 => ⟨S532480, .i32⟩
  | 107 => ⟨S532480x1, .i32⟩
  | 108 => ⟨S532480, .f32⟩
  | 109 => ⟨S532480, .f32⟩
  | 110 => ⟨S4x2, .f32⟩
  | 111 => ⟨S8192x2, .f32⟩
  | 112 => ⟨S532480x1, .f32⟩
  | 113 => ⟨S_, .i32⟩
  | 114 => ⟨S532480, .i32⟩
  | 115 => ⟨S532480, .i1⟩
  | 116 => ⟨S_, .i32⟩
  | 117 => ⟨S532480, .i32⟩
  | 118 => ⟨S532480, .i32⟩
  | 119 => ⟨S532480, .i32⟩
  | 120 => ⟨S532480x1, .i32⟩
  | 121 => ⟨S532480x2, .f32⟩
  | 122 => ⟨S532480x2, .f32⟩
  | 123 => ⟨S532480x2, .f32⟩
  | 124 => ⟨S_, .f32⟩
  | 125 => ⟨S8192x2, .f32⟩
  | 126 => ⟨S532480x1, .i32⟩
  | 127 => ⟨S8192x2, .f32⟩
  | _ => ⟨S8192x2, .f32⟩

abbrev hbmTy0_1 (i : Nat) : BufTy := match i % 128 with
  | 0 => ⟨S1x2, .f32⟩
  | 1 => ⟨S8192x2, .f32⟩
  | 2 => ⟨S8192x2, .f32⟩
  | 3 => ⟨S_, .f32⟩
  | 4 => ⟨S8192x2, .f32⟩
  | 5 => ⟨S8192x2, .f32⟩
  | 6 => ⟨S8192, .i32⟩
  | 7 => ⟨S532480, .i32⟩
  | 8 => ⟨S532480, .i32⟩
  | 9 => ⟨S_, .f32⟩
  | 10 => ⟨S532480, .f32⟩
  | 11 => ⟨S_, .f32⟩
  | 12 => ⟨S8192, .f32⟩
  | 13 => ⟨S532480x1, .i32⟩
  | 14 => ⟨S8192, .f32⟩
  | 15 => ⟨S_, .f32⟩
  | 16 => ⟨S8192, .f32⟩
  | 17 => ⟨S8192, .i1⟩
  | 18 => ⟨S8192, .f32⟩
  | 19 => ⟨S_, .f32⟩
  | 20 => ⟨S8192, .f32⟩
  | 21 => ⟨S8192, .f32⟩
  | 22 => ⟨S_, .i32⟩
  | 23 => ⟨S532480, .i32⟩
  | 24 => ⟨S532480, .i1⟩
  | 25 => ⟨S_, .i32⟩
  | 26 => ⟨S532480, .i32⟩
  | 27 => ⟨S532480, .i32⟩
  | 28 => ⟨S532480, .i32⟩
  | 29 => ⟨S532480x1, .i32⟩
  | 30 => ⟨S532480, .f32⟩
  | 31 => ⟨S_, .i32⟩
  | 32 => ⟨S532480, .i32⟩
  | 33 => ⟨S532480, .i1⟩
  | 34 => ⟨S_, .i32⟩
  | 35 => ⟨S532480, .i32⟩
  | 36 => ⟨S532480, .i32⟩
  | 37 => ⟨S532480, .i32⟩
  | 38 => ⟨S532480x1, .i32⟩
  | 39 => ⟨S532480, .f32⟩
  | 40 => ⟨S532480, .f32⟩
  | 41 => ⟨S2x1, .f32⟩
  | 42 => ⟨S8192x1, .f32⟩
  | 43 => ⟨S532480x1, .f32⟩
  | 44 => ⟨S_, .i32⟩
  | 45 => ⟨S532480, .i32⟩
  | 46 => ⟨S532480, .i1⟩
  | 47 => ⟨S_, .i32⟩
  | 48 => ⟨S532480, .i32⟩
  | 49 => ⟨S532480, .i32⟩
  | 50 => ⟨S532480, .i32⟩
  | 51 => ⟨S532480x1, .i32⟩
  | 52 => ⟨S532480x1, .f32⟩
  | 53 => ⟨S532480x1, .f32⟩
  | 54 => ⟨S_, .f32⟩
  | 55 => ⟨S8192x1, .f32⟩
  | 56 => ⟨S532480x1, .i32⟩
  | 57 => ⟨S8192x1, .f32⟩
  | 58 => ⟨S1x1, .f32⟩
  | 59 => ⟨S8192x1, .f32⟩
  | 60 => ⟨S8192x1, .f32⟩
  | 61 => ⟨S1x8192, .f32⟩
  | 62 => ⟨S8192x16384, .f32⟩
  | 63 => ⟨S1x16384, .f32⟩
  | 64 => ⟨S1x16384, .f32⟩
  | 65 => ⟨S1x16384, .f32⟩
  | 66 => ⟨S1x16384, .f32⟩
  | 67 => ⟨S16384x32, .f32⟩
  | 68 => ⟨S1x32, .f32⟩
  | 69 => ⟨S1x32, .f32⟩
  | 70 => ⟨S1x32, .f32⟩
  | 71 => ⟨S1x32, .f32⟩
  | _ => ⟨S8192x2, .f32⟩

abbrev hbmTy (i : Nat) : BufTy := match i / 128 with
  | 0 => hbmTy0_0 i
  | 1 => hbmTy0_1 i
  | _ => ⟨S8192x2, .f32⟩

abbrev bufTy : (tb : Table) → Fin (tcTables nBuf tb) → BufTy
  | .hbm, ⟨i, _⟩ => hbmTy i
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_22 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_23 : Ref sig .tc := ⟨.hbm, 147, rfl⟩
abbrev main_v106 : Ref sig .tc := ⟨.hbm, 148, rfl⟩
abbrev main_v107 : Ref sig .tc := ⟨.hbm, 149, rfl⟩
abbrev main_c_24 : Ref sig .tc := ⟨.hbm, 150, rfl⟩
abbrev main_v108 : Ref sig .tc := ⟨.hbm, 151, rfl⟩
abbrev main_v109 : Ref sig .tc := ⟨.hbm, 152, rfl⟩
abbrev main_c_25 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_26 : Ref sig .tc := ⟨.hbm, 159, rfl⟩
abbrev main_v115 : Ref sig .tc := ⟨.hbm, 160, rfl⟩
abbrev main_v116 : Ref sig .tc := ⟨.hbm, 161, rfl⟩
abbrev main_c_27 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_c_28 : Ref sig .tc := ⟨.hbm, 172, rfl⟩
abbrev main_v126 : Ref sig .tc := ⟨.hbm, 173, rfl⟩
abbrev main_v127 : Ref sig .tc := ⟨.hbm, 174, rfl⟩
abbrev main_c_29 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_30 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S8192_S532480_d0 : Shape.Concatenates [S524288, S8192] S532480 0
  bcast_S_S532480 : S_.BroadcastsInDim S532480 (![] : Fin 0 → Fin S532480.rank)
  bcast_S_S8192 : S_.BroadcastsInDim S8192 (![] : Fin 0 → Fin S8192.rank)
  bcast_S532480_S532480x1_0 : S532480.BroadcastsInDim S532480x1 (![0] : Fin 1 → Fin S532480x1.rank)
  transposes_S4x2_S2x4_1_0 : S4x2.Transposes [1, 0] S2x4
  bcast_S532480x1_S532480x4_0_1 : S532480x1.BroadcastsInDim S532480x4 (![0, 1] : Fin 2 → Fin S532480x4.rank)
  bcast_S_S8192x4 : S_.BroadcastsInDim S8192x4 (![] : Fin 0 → Fin S8192x4.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  transposes_S2x4_S4x2_1_0 : S2x4.Transposes [1, 0] S4x2
  bcast_S532480x1_S532480x2_0_1 : S532480x1.BroadcastsInDim S532480x2 (![0, 1] : Fin 2 → Fin S532480x2.rank)
  bcast_S_S8192x2 : S_.BroadcastsInDim S8192x2 (![] : Fin 0 → Fin S8192x2.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  transposes_S1x2_S2x1_1_0 : S1x2.Transposes [1, 0] S2x1
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S1x8192 : S8192x1.ShapeCasts S1x8192
  transposes_S16384x8192_S8192x16384_1_0 : S16384x8192.Transposes [1, 0] S8192x16384
  bcast_S16384_S1x16384_1 : S16384.BroadcastsInDim S1x16384 (![1] : Fin 1 → Fin S1x16384.rank)
  transposes_S32x16384_S16384x32_1_0 : S32x16384.Transposes [1, 0] S16384x32
  bcast_S32_S1x32_1 : S32.BroadcastsInDim S1x32 (![1] : Fin 1 → Fin S1x32.rank)
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  dot_S8192x2_S2x4_S8192x4_1_0_0_1_n_n_wf : DotDims.WF S8192x2 S2x4 S8192x4 [1] [0] [0] [1] [] []
  gather_S8192x4_S532480x1_S532480x4_1_0_n_n_0_1_14_wf : GatherDims.WF S8192x4 S532480x1 S532480x4 [1] [0] [] [0] [] 1 ![1, 4]
  scatter_S8192x4_S532480x1_S532480x4_1_0_0_1_wf : ScatterDims.WF S8192x4 S532480x1 S532480x4 [1] [0] [0] 1
  dot_S8192x4_S4x2_S8192x2_1_0_0_1_n_n_wf : DotDims.WF S8192x4 S4x2 S8192x2 [1] [0] [0] [1] [] []
  gather_S8192x2_S532480x1_S532480x2_1_0_n_n_0_1_12_wf : GatherDims.WF S8192x2 S532480x1 S532480x2 [1] [0] [] [0] [] 1 ![1, 2]
  scatter_S8192x2_S532480x1_S532480x2_1_0_0_1_wf : ScatterDims.WF S8192x2 S532480x1 S532480x2 [1] [0] [0] 1
  dot_S8192x2_S2x1_S8192x1_1_0_0_1_n_n_wf : DotDims.WF S8192x2 S2x1 S8192x1 [1] [0] [0] [1] [] []
  gather_S8192x1_S532480x1_S532480x1_1_0_n_n_0_1_11_wf : GatherDims.WF S8192x1 S532480x1 S532480x1 [1] [0] [] [0] [] 1 ![1, 1]
  scatter_S8192x1_S532480x1_S532480x1_1_0_0_1_wf : ScatterDims.WF S8192x1 S532480x1 S532480x1 [1] [0] [0] 1
  dot_S1x8192_S8192x16384_S1x16384_1_0_0_1_n_n_wf : DotDims.WF S1x8192 S8192x16384 S1x16384 [1] [0] [0] [1] [] []
  dot_S1x16384_S16384x32_S1x32_1_0_0_1_n_n_wf : DotDims.WF S1x16384 S16384x32 S1x32 [1] [0] [0] [1] [] []

variable [Facts₀]

def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def dot_S8192x2_S2x4_S8192x4_1_0_0_1_n_n : DotDims S8192x2 S2x4 S8192x4 where
  lhsContracting := [1]
  rhsContracting := [0]
  lhsNonContracting := [0]
  rhsNonContracting := [1]
  lhsBatch := []
  rhsBatch := []
  wf := dot_S8192x2_S2x4_S8192x4_1_0_0_1_n_n_wf
def gather_S8192x4_S532480x1_S532480x4_1_0_n_n_0_1_14 : GatherDims S8192x4 S532480x1 S532480x4 where
  offsetDims := [1]
  collapsedSliceDims := [0]
  operandBatchingDims := []
  startIndicesBatchingDims := []
  startIndexMap := [0]
  indexVectorDim := 1
  sliceSizes := ![1, 4]
  wf := gather_S8192x4_S532480x1_S532480x4_1_0_n_n_0_1_14_wf
def scatter_S8192x4_S532480x1_S532480x4_1_0_0_1 : ScatterDims S8192x4 S532480x1 S532480x4 where
  updateWindowDims := [1]
  insertedWindowDims := [0]
  scatterDimsToOperandDims := [0]
  indexVectorDim := 1
  wf := scatter_S8192x4_S532480x1_S532480x4_1_0_0_1_wf
def dot_S8192x4_S4x2_S8192x2_1_0_0_1_n_n : DotDims S8192x4 S4x2 S8192x2 where
  lhsContracting := [1]
  rhsContracting := [0]
  lhsNonContracting := [0]
  rhsNonContracting := [1]
  lhsBatch := []
  rhsBatch := []
  wf := dot_S8192x4_S4x2_S8192x2_1_0_0_1_n_n_wf
def gather_S8192x2_S532480x1_S532480x2_1_0_n_n_0_1_12 : GatherDims S8192x2 S532480x1 S532480x2 where
  offsetDims := [1]
  collapsedSliceDims := [0]
  operandBatchingDims := []
  startIndicesBatchingDims := []
  startIndexMap := [0]
  indexVectorDim := 1
  sliceSizes := ![1, 2]
  wf := gather_S8192x2_S532480x1_S532480x2_1_0_n_n_0_1_12_wf
def scatter_S8192x2_S532480x1_S532480x2_1_0_0_1 : ScatterDims S8192x2 S532480x1 S532480x2 where
  updateWindowDims := [1]
  insertedWindowDims := [0]
  scatterDimsToOperandDims := [0]
  indexVectorDim := 1
  wf := scatter_S8192x2_S532480x1_S532480x2_1_0_0_1_wf
def dot_S8192x2_S2x1_S8192x1_1_0_0_1_n_n : DotDims S8192x2 S2x1 S8192x1 where
  lhsContracting := [1]
  rhsContracting := [0]
  lhsNonContracting := [0]
  rhsNonContracting := [1]
  lhsBatch := []
  rhsBatch := []
  wf := dot_S8192x2_S2x1_S8192x1_1_0_0_1_n_n_wf
def gather_S8192x1_S532480x1_S532480x1_1_0_n_n_0_1_11 : GatherDims S8192x1 S532480x1 S532480x1 where
  offsetDims := [1]
  collapsedSliceDims := [0]
  operandBatchingDims := []
  startIndicesBatchingDims := []
  startIndexMap := [0]
  indexVectorDim := 1
  sliceSizes := ![1, 1]
  wf := gather_S8192x1_S532480x1_S532480x1_1_0_n_n_0_1_11_wf
def scatter_S8192x1_S532480x1_S532480x1_1_0_0_1 : ScatterDims S8192x1 S532480x1 S532480x1 where
  updateWindowDims := [1]
  insertedWindowDims := [0]
  scatterDimsToOperandDims := [0]
  indexVectorDim := 1
  wf := scatter_S8192x1_S532480x1_S532480x1_1_0_0_1_wf
def dot_S1x8192_S8192x16384_S1x16384_1_0_0_1_n_n : DotDims S1x8192 S8192x16384 S1x16384 where
  lhsContracting := [1]
  rhsContracting := [0]
  lhsNonContracting := [0]
  rhsNonContracting := [1]
  lhsBatch := []
  rhsBatch := []
  wf := dot_S1x8192_S8192x16384_S1x16384_1_0_0_1_n_n_wf
def dot_S1x16384_S16384x32_S1x32_1_0_0_1_n_n : DotDims S1x16384 S16384x32 S1x32 where
  lhsContracting := [1]
  rhsContracting := [0]
  lhsNonContracting := [0]
  rhsNonContracting := [1]
  lhsBatch := []
  rhsBatch := []
  wf := dot_S1x16384_S16384x32_S1x32_1_0_0_1_n_n_wf

class Facts : Prop extends Facts₀ where

variable [Facts]
-- ==== Proof.BodyPieces.lean ====
/-
  What the kernel body leaves behind at a grid step, as values.

  The body keeps a running total of 32 numbers in a scratch buffer.  At the first step of a group of 32 it first stores
  zeros there; at every step it then stores "total so far plus this step's contribution" (one whole-buffer store whose
  value is a function of the four input blocks and of the buffer's contents before it); at the last step of a group
  it copies the total into the output block.  So, whatever the memrefs, the scratch ends at that function of the
  blocks and of zeros (first step) or of what the step before left (other steps), and the output block of a last step
  ends at the same value.
-/
import proofs.«127486_j46256797778021_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A step that is neither first nor last in its group: the scratch ends at the step function of the blocks and of
    what it held. -/
theorem sout_B (c : Dev nD) (i : grid0.Coords) (a2 : Memref sig .tc .vmem S1x8192 .f32) (h2 : a2.IsWhole) (a3 : Memref sig .tc .vmem S256x8192 .f32) (h3 : a3.IsWhole) (a4 : Memref sig .tc .vmem S1x256 .f32) (h4 : a4.IsWhole) (a5 : Memref sig .tc .vmem S32x256 .f32) (h5 : a5.IsWhole) (a6 : Memref sig .tc .vmem S1x1x32 .f32) (h6 : a6.IsWhole) (a7 : Memref sig .tc .vmem S1x1x32 .f32) (h7 : a7.IsWhole) (hc0 : ¬cond0_0 i) (hc1 : ¬cond0_1 i) (x0 : Vec F S1x8192 .f32) (x1 : Vec F S256x8192 .f32) (x2 : Vec F S1x256 .f32) (x3 : Vec F S32x256 .f32) (xs0 : Vec F S1x1x32 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz3]
  simp only [View.readAt_eq_ld, h2.read_unread, h3.read_unread, h4.read_unread, h5.read_unread, h7.read_unread,
    View.ld_unit_zero (S := S1x8192) hz2, View.ld_unit_zero (S := S256x8192) hz2, View.ld_unit_zero (S := S1x256) hz2,
    View.ld_unit_zero (S := S32x256) hz2, View.ld_unit_zero (S := S1x1x32) hz3]

/-- The last step of a group: the scratch ends at the step function of the blocks and of what it held. -/
theorem sout_C (c : Dev nD) (i : grid0.Coords) (a2 : Memref sig .tc .vmem S1x8192 .f32) (h2 : a2.IsWhole) (a3 : Memref sig .tc .vmem S256x8192 .f32) (h3 : a3.IsWhole) (a4 : Memref sig .tc .vmem S1x256 .f32) (h4 : a4.IsWhole) (a5 : Memref sig .tc .vmem S32x256 .f32) (h5 : a5.IsWhole) (a6 : Memref sig .tc .vmem S1x1x32 .f32) (h6 : a6.IsWhole) (a7 : Memref sig .tc .vmem S1x1x32 .f32) (h7 : a7.IsWhole) (hc0 : ¬cond0_0 i) (hc1 : cond0_1 i) (x0 : Vec F S1x8192 .f32) (x1 : Vec F S256x8192 .f32) (x2 : Vec F S1x256 .f32) (x3 : Vec F S32x256 .f32) (xs0 : Vec F S1x1x32 .f32) :
    sout0_C_0 c i a2 h2 a3 h3 a4 h4 a5 h5 a6 h6 a7 h7 hc0 hc1 x0 x1 x2 x3 xs0 = k0_pay2 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz3]
  simp only [View.readAt_eq_ld, h2.read_unread, h3.read_unread, h4.read_unread, h5.read_unread, h7.read_unread,
    View.ld_unit_zero (S := S1x8192) hz2, View.ld_unit_zero (S := S256x8192) hz2, View.ld_unit_zero (S := S1x256) hz2,
    View.ld_unit_zero (S := S32x256) hz2, View.ld_unit_zero (S := S1x1x32) hz3]

/-- The last step of a group: the output block ends at the step function of the blocks and of what the scratch
    held, the same value the scratch ends at. -/
theorem out_C (c : Dev nD) (i : grid0.Coords) (a2 : Memref sig .tc .vmem S1x8192 .f32) (h2 : a2.IsWhole) (a3 : Memref sig .tc .vmem S256x8192 .f32) (h3 : a3.IsWhole) (a4 : Memref sig .tc .vmem S1x256 .f32) (h4 : a4.IsWhole) (a5 : Memref sig .tc .vmem S32x256 .f32) (h5 : a5.IsWhole) (a6 : Memref sig .tc .vmem S1x1x32 .f32) (h6 : a6.IsWhole) (a7 : Memref sig .tc .vmem S1x1x32 .f32) (h7 : a7.IsWhole) (hc0 : ¬cond0_0 i) (hc1 : cond0_1 i) (x0 : Vec F S1x8192 .f32) (x1 : Vec F S256x8192 .f32) (x2 : Vec F S1x256 .f32) (x3 : Vec F S32x256 .f32) (xs0 : Vec F S1x1x32 .f32) :
    out0_C_4 c i a2 h2 a3 h3 a4 h4 a5 h5 a6 h6 a7 h7 hc0 hc1 x0 x1 x2 x3 xs0 = k0_pay2 x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3, View.readCov_unit_zero (S := S1x1x32) _ hz3]
  simp only [View.readAt_eq_ld, h2.read_unread, h3.read_unread, h4.read_unread, h5.read_unread, h7.read_unread,
    View.ld_unit_zero (S := S1x8192) hz2, View.ld_unit_zero (S := S256x8192) hz2, View.ld_unit_zero (S := S1x256) hz2,
    View.ld_unit_zero (S := S32x256) hz2, View.ld_unit_zero (S := S1x1x32) hz3]

/-- The first step of a group: the scratch, zeroed first, ends at the step function of the blocks and of zeros. -/
theorem sout_A (c : Dev nD) (i : grid0.Coords) (a2 : Memref sig .tc .vmem S1x8192 .f32) (h2 : a2.IsWhole) (a3 : Memref sig .tc .vmem S256x8192 .f32) (h3 : a3.IsWhole) (a4 : Memref sig .tc .vmem S1x256 .f32) (h4 : a4.IsWhole) (a5 : Memref sig .tc .vmem S32x256 .f32) (h5 : a5.IsWhole) (a6 : Memref sig .tc .vmem S1x1x32 .f32) (h6 : a6.IsWhole) (a7 : Memref sig .tc .vmem S1x1x32 .f32) (h7 : a7.IsWhole) (hc0 : cond0_0 i) (hc1 : ¬cond0_1 i) (x0 : Vec F S1x8192 .f32) (x1 : Vec F S256x8192 .f32) (x2 : Vec F S1x256 .f32) (x3 : Vec F S32x256 .f32) :
    sout0_A_0 c i a2 h2 a3 h3 a4 h4 a5 h5 a6 h6 a7 h7 hc0 hc1 x0 x1 x2 x3 = k0_pay2 x0 x1 x2 x3 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, h4.read_unread, h5.read_unread, h7.read_unread,
    View.ld_unit_zero (S := S1x8192) hz2, View.ld_unit_zero (S := S256x8192) hz2, View.ld_unit_zero (S := S1x256) hz2,
    View.ld_unit_zero (S := S32x256) hz2, View.ld_unit_zero (S := S1x1x32) hz3]

end Cert.KernelIdeal.Pieces

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«127486_j46256797778021_2_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.BodyValue.lean ====
/-
  What one grid step of the kernel adds to its running total, entry by entry.

  At a step the body holds a row x of 8192 numbers, a block of 256 rows of the first weight matrix, the matching 256
  bias entries and the matching 256 columns of the second weight matrix.  It forms the 256 hidden units
  tanh (sum over q of x q * row r q + bias r) and adds, to entry o of the running total, the sum over r of
  hidden r * (second weights) o r.  Changes of float format are the identity on the extended reals, and a product
  into a zero accumulator is the plain sum of products.
-/
import proofs.«127486_j46256797778021_2_alg».proof.Proof.Gen.KernelIdeal.Skeleton
import proofs.«127486_j46256797778021_2_alg».proof.Proof.LibRowOpsFormats
import Idealize.ShloMosaic.Lib.Pipeline.Value
import Idealize.ShloMosaic.Lib.ValueIdx

noncomputable section

open scoped BigOperators

namespace Cert.KernelIdeal.Body

open Idealize.ShloMosaic Idealize.ShloMosaic.ValueIdx Cert.KernelIdeal Cert.KernelIdeal.Gen

/-- What a step adds to entry o of the running total. -/
def stepSum (x0 : Vec Ideal S1x8192 .f32) (x1 : Vec Ideal S256x8192 .f32) (x2 : Vec Ideal S1x256 .f32)
    (x3 : Vec Ideal S32x256 .f32) (o : Fin 32) : EReal :=
  ∑ r : Fin 256, Ideal.tanh ((∑ q : Fin 8192, x0 (ix2 0 q) * x1 (ix2 r q)) + x2 (ix2 0 r)) * x3 (ix2 o r)

/-- The last two coordinates of the index (0, 0, o) are the index (0, o). -/
theorem tail_ix3 (o : Fin 32) :
    (fun a : Fin 2 => (ix3 (0 : Fin 1) (0 : Fin 1) o : S1x1x32.Idx) a.succ) = (ix2 (0 : Fin 1) o : S1x32.Idx) :=
  funext fun a => by match a with | ⟨0, _⟩ => rfl | ⟨1, _⟩ => rfl

/-- The step's stored value at entry o: the total so far plus the step's sum. -/
theorem pay2_apply (x0 : Vec Ideal S1x8192 .f32) (x1 : Vec Ideal S256x8192 .f32) (x2 : Vec Ideal S1x256 .f32)
    (x3 : Vec Ideal S32x256 .f32) (a : Vec Ideal S1x1x32 .f32) (o : Fin 32) :
    k0_pay2 (F := Ideal) x0 x1 x2 x3 a (ix3 0 0 o) = a (ix3 0 0 o) + stepSum x0 x1 x2 x3 o := by
  unfold k0_pay2
  refine (congrFun (shapeCast_self _ _) _).trans ?_
  refine congrArg (a (ix3 0 0 o) + ·) ?_
  refine (shapeCast_addUnit_apply ![1, 32] _ _ (ix3 0 0 o)).trans ?_
  refine (congrArg _ (tail_ix3 o)).trans ?_
  refine (Cert.RowOps.rows_matmul dot_S1x256_S32x256_S1x32_1_1_0_0_n_n.wf _ rfl _ _ 0 o).trans ?_
  unfold stepSum
  refine Finset.sum_congr rfl fun r _ => ?_
  refine congrArg (fun z => Ideal.tanh z * x3 (ix2 o r)) ?_
  refine congrArg₂ (· + ·) ?_ (congrFun (shapeCast_self _ _) _)
  refine (Cert.RowOps.rows_matmul dot_S1x8192_S256x8192_S1x256_1_1_0_0_n_n.wf _ rfl _ _ 0 r).trans ?_
  refine Finset.sum_congr rfl fun q _ => ?_
  exact congrArg (· * x1 (ix2 r q)) (congrFun (shapeCast_self _ _) _)

/-- The value the first step of a group stores first: zero everywhere. -/
theorem pay1_apply (j : S1x1x32.Idx) : k0_pay1 (F := Ideal) j = 0 := by
  unfold k0_pay1
  refine (congrFun (shapeCast_self _ _) _).trans ?_
  exact Ideal.ofBits_zero_f32

end Cert.KernelIdeal.Body

end
-- ==== Proof.LibChunkedSum.lean ====
/-
  A long sum cut into equal chunks.

  In any commutative monoid (no subtraction, no finiteness: the extended reals qualify) a sum over the first a*b
  naturals is the sum, over the a chunks s, of the sum over the b positions j inside chunk s of the term at s*b + j.
  Only associativity and commutativity of addition are used, so the regrouping holds whatever the summands are.
-/
import Mathlib.Algebra.BigOperators.Fin
import Mathlib.Algebra.BigOperators.Intervals

open Finset

namespace Cert.ChunkedSum

variable {β : Type*} [AddCommMonoid β]

/-- A sum over `range (a*b)` is the sum over the chunk number of the sums over the positions inside a chunk. -/
theorem sum_range_chunks (a b : ℕ) (f : ℕ → β) :
    ∑ h ∈ range (a * b), f h = ∑ s ∈ range a, ∑ j ∈ range b, f (s * b + j) := by
  induction a with
  | zero => simp
  | succ a ih => rw [Nat.succ_mul, Finset.sum_range_add, ih, Finset.sum_range_succ]

/-- The same with the long sum and the inner sums over `Fin`. -/
theorem sum_fin_chunks (a b : ℕ) (f : ℕ → β) :
    ∑ h : Fin (a * b), f h.val = ∑ s ∈ range a, ∑ j : Fin b, f (s * b + j.val) := by
  rw [Fin.sum_univ_eq_sum_range (fun h => f h) (a * b), sum_range_chunks]
  refine Finset.sum_congr rfl fun s _ => ?_
  rw [Fin.sum_univ_eq_sum_range (fun j => f (s * b + j)) b]

/-- A function on `Fin n` extended by zero to every natural. -/
def ext0 {n : ℕ} (g : Fin n → β) (k : ℕ) : β := if h : k < n then g ⟨k, h⟩ else 0

theorem ext0_val {n : ℕ} (g : Fin n → β) (h : Fin n) : ext0 g h.val = g h := by
  unfold ext0; rw [dif_pos h.isLt]

/-- A sum over `Fin (a*b)` of any function is the sum over the chunks of the chunk sums of its extension. -/
theorem sum_chunks_ext0 (a b : ℕ) (g : Fin (a * b) → β) :
    ∑ h : Fin (a * b), g h = ∑ s ∈ range a, ∑ j : Fin b, ext0 g (s * b + j.val) := by
  rw [← sum_fin_chunks a b (ext0 g)]
  exact Finset.sum_congr rfl fun h _ => (ext0_val g h).symm

end Cert.ChunkedSum
-- ==== Proof.MlpSums.lean ====
/-
  The trailing two-layer perceptron as sums over the extended reals, and the regrouping of its long sum.

  With x a row of 8192 numbers, the hidden unit k is tanh (sum over q of x q * Wa k q + ba k), and the output o is
  tanh (sum over the 16384 hidden units k of hidden k * Wb o k + bb o).  The long sum is cut into 64 consecutive
  chunks of 256 hidden units; chunks 0..31 are added one after the other into a running total that starts from
  zero, chunks 32..63 into a second one, and the two totals are added.  Addition on the extended reals is
  associative and commutative with 0 neutral, so the regrouped sum is the long sum whatever the summands are:
  no finiteness is used anywhere.
-/
import Idealize.ShloMosaic.PureOps.Ideal
import proofs.«127486_j46256797778021_2_alg».proof.Proof.LibChunkedSum

open Finset

noncomputable section

namespace Cert.Mlp

section Running

variable {β : Type*} [AddCommMonoid β]

/-- The sum of chunk b of a sequence: its 256 terms from position b * 256 on. -/
def blockSum (T : ℕ → β) (b : ℕ) : β := ∑ r : Fin 256, T (b * 256 + r.val)

/-- The running total after step n: it restarts from zero at every step that is a multiple of 32, and otherwise
    continues from the step before; each step adds its own term. -/
def acc (P : ℕ → β) : ℕ → β
  | 0 => 0 + P 0
  | n + 1 => (if (n + 1) % 32 = 0 then 0 else acc P n) + P (n + 1)

theorem acc_zero (P : ℕ → β) : acc P 0 = 0 + P 0 := rfl

theorem acc_succ (P : ℕ → β) (n : ℕ) :
    acc P (n + 1) = (if (n + 1) % 32 = 0 then 0 else acc P n) + P (n + 1) := rfl

/-- The running total after step n is the sum of the terms since the last restart. -/
theorem acc_eq (P : ℕ → β) (n : ℕ) : acc P n = ∑ j ∈ range (n % 32 + 1), P (n / 32 * 32 + j) := by
  induction n with
  | zero => simp [acc]
  | succ n ih =>
    rw [acc_succ]
    by_cases h : (n + 1) % 32 = 0
    · rw [if_pos h, h, zero_add, Finset.sum_range_one]
      congr 1; omega
    · rw [if_neg h, ih]
      have h1 : (n + 1) % 32 = n % 32 + 1 := by omega
      have h2 : (n + 1) / 32 = n / 32 := by omega
      rw [h1, h2, Finset.sum_range_succ _ (n % 32 + 1)]
      congr 2; omega

/-- After the last step of a group of 32 the running total is the sum of the group's 32 terms. -/
theorem acc_last (P : ℕ → β) (i : ℕ) : acc P (i * 32 + 31) = ∑ j ∈ range 32, P (i * 32 + j) := by
  rw [acc_eq]
  have h1 : (i * 32 + 31) % 32 + 1 = 32 := by omega
  have h2 : (i * 32 + 31) / 32 = i := by omega
  rw [h1, h2]

/-- A sum of 16384 terms is the first group's running total after its 32 chunks plus the second group's. -/
theorem total_eq (g : Fin 16384 → β) :
    ∑ k : Fin 16384, g k
      = acc (blockSum (ChunkedSum.ext0 g)) 31 + acc (blockSum (ChunkedSum.ext0 g)) 63 := by
  have e1 : ∑ k : Fin 16384, g k = ∑ s ∈ range 64, blockSum (ChunkedSum.ext0 g) s :=
    ChunkedSum.sum_chunks_ext0 64 256 g
  have e2 : ∑ s ∈ range 64, blockSum (ChunkedSum.ext0 g) s
      = ∑ i ∈ range 2, ∑ j ∈ range 32, blockSum (ChunkedSum.ext0 g) (i * 32 + j) :=
    ChunkedSum.sum_range_chunks 2 32 (blockSum (ChunkedSum.ext0 g))
  rw [e1, e2, Finset.sum_range_succ, Finset.sum_range_one]
  rw [show (31 : ℕ) = 0 * 32 + 31 from rfl, show (63 : ℕ) = 1 * 32 + 31 from rfl, acc_last, acc_last]

end Running

open Idealize.ShloMosaic

/-- Hidden unit k of the first layer. -/
def hidden (x : Fin 8192 → EReal) (Wa : Fin 16384 → Fin 8192 → EReal) (ba : Fin 16384 → EReal)
    (k : Fin 16384) : EReal :=
  Ideal.tanh ((∑ q : Fin 8192, x q * Wa k q) + ba k)

/-- The summand of output o at hidden unit k. -/
def term (x : Fin 8192 → EReal) (Wa : Fin 16384 → Fin 8192 → EReal) (ba : Fin 16384 → EReal)
    (Wb : Fin 32 → Fin 16384 → EReal) (o : Fin 32) (k : Fin 16384) : EReal :=
  hidden x Wa ba k * Wb o k

/-- Output o of the second layer, the long sum taken whole. -/
def out (x : Fin 8192 → EReal) (Wa : Fin 16384 → Fin 8192 → EReal) (ba : Fin 16384 → EReal)
    (Wb : Fin 32 → Fin 16384 → EReal) (bb : Fin 32 → EReal) (o : Fin 32) : EReal :=
  Ideal.tanh ((∑ k : Fin 16384, term x Wa ba Wb o k) + bb o)

/-- Output o with the long sum taken as two running totals over 32 chunks of 256 hidden units each. -/
def outSplit (x : Fin 8192 → EReal) (Wa : Fin 16384 → Fin 8192 → EReal) (ba : Fin 16384 → EReal)
    (Wb : Fin 32 → Fin 16384 → EReal) (bb : Fin 32 → EReal) (o : Fin 32) : EReal :=
  Ideal.tanh ((acc (blockSum (ChunkedSum.ext0 (term x Wa ba Wb o))) 31
    + acc (blockSum (ChunkedSum.ext0 (term x Wa ba Wb o))) 63) + bb o)

theorem outSplit_eq (x : Fin 8192 → EReal) (Wa : Fin 16384 → Fin 8192 → EReal) (ba : Fin 16384 → EReal)
    (Wb : Fin 32 → Fin 16384 → EReal) (bb : Fin 32 → EReal) (o : Fin 32) :
    outSplit x Wa ba Wb bb o = out x Wa ba Wb bb o := by
  unfold outSplit out
  rw [total_eq]

end Cert.Mlp

end
-- ==== Proof.Accumulate.lean ====
/-
  The running total the kernel carries across the grid, in closed form.

  The grid has 64 steps, step t handling chunk t of the 16384 hidden units: rows t*256 .. t*256+255 of the first
  weight matrix and of its bias, and the same columns of the second weight matrix; the row x is the same at every
  step.  Steps 0..31 form one group, steps 32..63 the other.  What a step adds to entry o of the running total is the
  sum, over the 256 hidden units of its chunk, of hidden unit times the second weight — the chunk sum of the
  perceptron's summands.  By induction on the step, the scratch buffer after step n holds the running total of
  MlpSums' `acc` over these chunk sums; at the last step of a group the output block is a copy of it.
-/
import proofs.«127486_j46256797778021_2_alg».proof.Proof.Gen.KernelIdeal.Frame
import proofs.«127486_j46256797778021_2_alg».proof.Proof.BodyPieces
import proofs.«127486_j46256797778021_2_alg».proof.Proof.BodyValue
import proofs.«127486_j46256797778021_2_alg».proof.Proof.MlpSums
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable (m : (ℓ : Loc nD τ sig) → Buf (Elt Ideal) ℓ)

/-- The row of node values as the region finds it. -/
def xrow (c : Dev nD) (q : Fin 8192) : EReal := (V m c main_v86 : FVec Ideal S1x8192 .f32) (ix2 0 q)
/-- The first weight matrix. -/
def wa (c : Dev nD) (k : Fin 16384) (q : Fin 8192) : EReal := (V m c main_arg8 : FVec Ideal S16384x8192 .f32) (ix2 k q)
/-- The first bias, as the one-row matrix the region finds. -/
def bav (c : Dev nD) (k : Fin 16384) : EReal := (V m c main_v87 : FVec Ideal S1x16384 .f32) (ix2 0 k)
/-- The second weight matrix. -/
def wb (c : Dev nD) (o : Fin 32) (k : Fin 16384) : EReal := (V m c main_arg10 : FVec Ideal S32x16384 .f32) (ix2 o k)

/-- The chunk sums of output o's summands. -/
def chunk (c : Dev nD) (o : Fin 32) : ℕ → EReal :=
  Mlp.blockSum (ChunkedSum.ext0 (Mlp.term (xrow m c) (wa m c) (bav m c) (wb m c) o))

/-- Where each window's block sits at step t: the row never moves, the weight and bias blocks are block t, the output
    block is the group's. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 3) = t.val / 32 ∧ win0_4.index t (1 : Fin 3) = 0 ∧ win0_4.index t (2 : Fin 3) = 0 :=
  (by decide +kernel : ∀ t : Fin grid0.N, _)

theorem blk0 (c : Dev nD) (t : Fin cfg0.N) (q : Fin 8192) :
    (iblk m c 0 t : Vec Ideal S1x8192 .f32) (ix2 0 q) = xrow m c q := by
  obtain ⟨e0, e1, -⟩ := idx_facts t
  unfold iblk xrow
  rw [View.read_apply]
  show V m c main_v86 _ = V m c main_v86 _
  congr 1
  funext a; apply Fin.ext
  match a with
  | ⟨0, _⟩ => show win0_0.index t (0 : Fin 2) * 1 + 1 * 0 = 0; omega
  | ⟨1, _⟩ => show win0_0.index t (1 : Fin 2) * 8192 + 1 * q.val = q.val; omega

theorem blk1 (c : Dev nD) (t : Fin cfg0.N) (r : Fin 256) (q : Fin 8192) (hk : t.val * 256 + r.val < 16384) :
    (iblk m c 1 t : Vec Ideal S256x8192 .f32) (ix2 r q) = wa m c ⟨t.val * 256 + r.val, hk⟩ q := by
  obtain ⟨-, -, e0, e1, -⟩ := idx_facts t
  unfold iblk wa
  rw [View.read_apply]
  show V m c main_arg8 _ = V m c main_arg8 _
  congr 1
  funext a; apply Fin.ext
  match a with
  | ⟨0, _⟩ => show win0_1.index t (0 : Fin 2) * 256 + 1 * r.val = t.val * 256 + r.val; omega
  | ⟨1, _⟩ => show win0_1.index t (1 : Fin 2) * 8192 + 1 * q.val = q.val; omega

theorem blk2 (c : Dev nD) (t : Fin cfg0.N) (r : Fin 256) (hk : t.val * 256 + r.val < 16384) :
    (iblk m c 2 t : Vec Ideal S1x256 .f32) (ix2 0 r) = bav m c ⟨t.val * 256 + r.val, hk⟩ := by
  obtain ⟨-, -, -, -, e0, e1, -⟩ := idx_facts t
  unfold iblk bav
  rw [View.read_apply]
  show V m c main_v87 _ = V m c main_v87 _
  congr 1
  funext a; apply Fin.ext
  match a with
  | ⟨0, _⟩ => show win0_2.index t (0 : Fin 2) * 1 + 1 * 0 = 0; omega
  | ⟨1, _⟩ => show win0_2.index t (1 : Fin 2) * 256 + 1 * r.val = t.val * 256 + r.val; omega

theorem blk3 (c : Dev nD) (t : Fin cfg0.N) (o : Fin 32) (r : Fin 256) (hk : t.val * 256 + r.val < 16384) :
    (iblk m c 3 t : Vec Ideal S32x256 .f32) (ix2 o r) = wb m c o ⟨t.val * 256 + r.val, hk⟩ := by
  obtain ⟨-, -, -, -, -, -, e0, e1, -⟩ := idx_facts t
  unfold iblk wb
  rw [View.read_apply]
  show V m c main_arg10 _ = V m c main_arg10 _
  congr 1
  funext a; apply Fin.ext
  match a with
  | ⟨0, _⟩ => show win0_3.index t (0 : Fin 2) * 32 + 1 * o.val = o.val; omega
  | ⟨1, _⟩ => show win0_3.index t (1 : Fin 2) * 256 + 1 * r.val = t.val * 256 + r.val; omega

/-- What step t adds to entry o is chunk t's sum. -/
theorem step_eq (c : Dev nD) (t : Fin cfg0.N) (o : Fin 32) :
    Body.stepSum (iblk m c 0 t) (iblk m c 1 t) (iblk m c 2 t) (iblk m c 3 t) o = chunk m c o t.val := by
  have hN : t.val < 64 := lt_of_lt_of_eq t.isLt (show cfg0.N = 64 from N_0)
  unfold Body.stepSum chunk Mlp.blockSum
  refine Finset.sum_congr rfl fun r _ => ?_
  have hk : t.val * 256 + r.val < 16384 := by have := r.isLt; omega
  refine Eq.trans ?_ (ChunkedSum.ext0_val (Mlp.term (xrow m c) (wa m c) (bav m c) (wb m c) o) ⟨t.val * 256 + r.val, hk⟩).symm
  unfold Mlp.term Mlp.hidden
  refine congrArg₂ (fun z w => Ideal.tanh z * w) ?_ (blk3 m c t o r hk)
  refine congrArg₂ (· + ·) ?_ (blk2 m c t r hk)
  exact Finset.sum_congr rfl fun q _ => congrArg₂ (· * ·) (blk0 m c t q) (blk1 m c t r q hk)

/-- THE INVARIANT: after step n the scratch buffer's entry o is the running total of the chunk sums. -/
theorem scratch_eq (c : Dev nD) (o : Fin 32) :
    ∀ (n : ℕ) (h : n < cfg0.N), (outsAt0 m c n h).2 (ix3 0 0 o) = Mlp.acc (chunk m c o) n
  | 0, h => by
    rw [outsAt0_A m c ⟨0, h⟩ (Nat.zero_mod 32) (by show ¬(0 % 32 = 31); decide)]
    dsimp only
    rw [Pieces.sout_A]
    refine (Body.pay2_apply _ _ _ _ _ o).trans ?_
    rw [Body.pay1_apply, step_eq m c ⟨0, h⟩ o]
    rfl
  | n + 1, h => by
    have hN : n + 1 < 64 := lt_of_lt_of_eq h (show cfg0.N = 64 from N_0)
    rw [Mlp.acc_succ]
    by_cases h0 : (n + 1) % 32 = 0
    · have h1 : ¬(n + 1) % 32 = 31 := by omega
      rw [if_pos h0, outsAt0_A m c ⟨n + 1, h⟩ h0 h1]
      dsimp only
      rw [Pieces.sout_A]
      refine (Body.pay2_apply _ _ _ _ _ o).trans ?_
      rw [Body.pay1_apply, step_eq m c ⟨n + 1, h⟩ o]
    · rw [if_neg h0]
      by_cases h1 : (n + 1) % 32 = 31
      · rw [outsAt0_C m c ⟨n + 1, h⟩ h0 h1]
        dsimp only
        rw [Pieces.sout_C]
        refine (Body.pay2_apply _ _ _ _ _ o).trans ?_
        rw [step_eq m c ⟨n + 1, h⟩ o]
        exact congrArg (· + _) (scratch_eq c o n _)
      · rw [outsAt0_B m c ⟨n + 1, h⟩ h0 h1]
        dsimp only
        rw [Pieces.sout_B]
        refine (Body.pay2_apply _ _ _ _ _ o).trans ?_
        rw [step_eq m c ⟨n + 1, h⟩ o]
        exact congrArg (· + _) (scratch_eq c o n _)

/-- At the last step of a group the output block is the scratch buffer's final contents. -/
theorem out_eq (c : Dev nD) (o : Fin 32) (t : Fin cfg0.N) (h1 : t.val % 32 = 31) :
    (outsAt0 m c t.val t.isLt).1 (ix3 0 0 o) = Mlp.acc (chunk m c o) t.val := by
  have h0 : ¬t.val % 32 = 0 := by omega
  rw [← scratch_eq m c o t.val t.isLt, outsAt0_C m c t h0 h1]
  dsimp only
  rw [Pieces.out_C, Pieces.sout_C]

end Cert.KernelIdeal.Acc

end
-- ==== Proof.KernelResult.lean ====
/-
  The kernel's result, entry by entry.

  The pallas_call's output array has one row of 32 numbers per group of 32 steps; row i is written back once, after
  the last step of group i, and holds the group's running total.  The host then adds the two rows, adds the second
  bias and takes tanh.  So entry o of the kernel's result is the perceptron's output o with its long sum taken as two
  running totals — which MlpSums shows to be the long sum itself.
-/
import proofs.«127486_j46256797778021_2_alg».proof.Proof.Accumulate
import Idealize.ShloMosaic.Lib.Pipeline.Value
import Idealize.ShloMosaic.Lib.ValueIdx
import Idealize.ShloMosaic.Lib.ValueLayout
import Idealize.ShloMosaic.Lib.StableHlo.Run

set_option maxRecDepth 8192

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable (m : (ℓ : Loc nD τ sig) → Buf (Elt Ideal) ℓ) (ρ : Dev nD → PrngReg)

/-- The output array after the run: row i holds group i's running total after its last step. -/
def totals (c : Dev nD) : S2x1x32.Idx → EReal :=
  fun i => Mlp.acc (Acc.chunk m c ⟨(i 2).val, (i 2).isLt⟩) ((i 0).val * 32 + 31)

/-- What the last step of a group writes back is its block of `totals`. -/
theorem flushed_eq (c : Dev nD) (t : Fin cfg0.N) (hf : (cfg0.win 4).flush t = true) :
    (dats m 0 c).flushed 4 t = ((cfg0.win 4).blk t).view.read (Elt Ideal) (totals m c) := by
  have h31 : t.val % 32 = 31 := (flush0_4 t).mp hf
  obtain ⟨-, -, -, -, -, -, -, -, e0, e1, e2⟩ := Acc.idx_facts t
  show (cfg0.win 4).cut (grid0.coords t) ((dats m 0 c).after 4 t) = _
  rw [after0_4]
  funext j
  obtain ⟨y0, y1, y2, rfl⟩ : ∃ (y0 : Fin 1) (y1 : Fin 1) (y2 : Fin 32), j = ix3 y0 y1 y2 := ⟨j 0, j 1, j 2, eq_ix3 j⟩
  obtain rfl : y0 = 0 := Subsingleton.elim _ _
  obtain rfl : y1 = 0 := Subsingleton.elim _ _
  rw [View.read_apply]
  show (outsAt0 m c t.val t.isLt).1 (ix3 0 0 y2) = totals m c (((cfg0.win 4).blk t).view.emb (ix3 0 0 y2))
  rw [Acc.out_eq m c y2 t h31]
  unfold totals
  have hA : (⟨((((cfg0.win 4).blk t).view.emb (ix3 0 0 y2)) 2).val, ((((cfg0.win 4).blk t).view.emb (ix3 0 0 y2)) 2).isLt⟩ : Fin 32) = y2 :=
    Fin.ext (show win0_4.index t (2 : Fin 3) * 32 + 1 * y2.val = y2.val by omega)
  have hB : ((((cfg0.win 4).blk t).view.emb (ix3 0 0 y2)) 0).val * 32 + 31 = t.val :=
    show (win0_4.index t (0 : Fin 3) * 1 + 1 * 0) * 32 + 31 = t.val by omega
  rw [hA, hB]

/-- An index of the output array is in step t's block iff each coordinate is in the block's range. -/
theorem mem_blk (t : Fin cfg0.N) (i : S2x1x32.Idx) :
    i ∈ ((cfg0.win 4).blk t).view.set ↔ ∀ a : Fin 3, win0_4.index t a * S1x1x32.size a ≤ (i a).val ∧ (i a).val < win0_4.index t a * S1x1x32.size a + S1x1x32.size a := by
  show i ∈ ((View.whole main_v88).slice (win0_4.rect t)).set ↔ _
  rw [View.set_slice_whole, Rect.mem_set_unit]
  exact Iff.rfl

/-- Every entry of the output array is written back by the last step of its row's group. -/
theorem cover (c : Dev nD) (i : S2x1x32.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 32 := (i 2).isLt
  have hN : cfg0.N = 64 := N_0
  let t : Fin cfg0.N := ⟨(i 0).val * 32 + 31, by omega⟩
  have ht : t.val = (i 0).val * 32 + 31 := rfl
  obtain ⟨-, -, -, -, -, -, -, -, e0, e1, e2⟩ := Acc.idx_facts t
  refine ⟨t, (flush0_4 t).mpr (by omega), ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 32 ≤ (i 2).val ∧ (i 2).val < win0_4.index t (2 : Fin 3) * 32 + 32; omega

/-- THE OUTPUT ARRAY after the run is `totals`. -/
theorem final (c : Dev nD) : (dats m 0 c).arrAt 4 cfg0.N = totals m c :=
  (dats m 0 c).arrAt_eq_of_cover 4 (totals m c) (flushed_eq m c) (cover c)

/-- The second bias as launched. -/
def bbK (c : Dev nD) : FVec Ideal S32 .f32 := m ((c : Thread nD τ).loc main_arg11)

/-- The program's result as the host's last operations of the output array and the second bias. -/
theorem result_term (c : Dev nD) :
    (Pipeline.afterTail₀ cfgs (dats m) 0 (V0 m) [hostOps1] c main_v96 : FVec Ideal S1x32 .f32)
      = Host.tanh (addf (addf
          (shapeCast S1x32 (extractStridedSlice S1x1x32 ![0, 0, 0] (totals m c) slices_S2x1x32_S1x1x32_0_0_0) shapeCasts_S1x1x32_S1x32)
          (shapeCast S1x32 (extractStridedSlice S1x1x32 ![1, 0, 0] (totals m c) slices_S2x1x32_S1x1x32_1_0_0) shapeCasts_S1x1x32_S1x32))
          (shapeCast S1x32 (bbK m c) shapeCasts_S32_S1x32)) := by
  unfold Pipeline.afterTail₀
  simp only [List.flatten_cons, List.flatten_nil, List.append_nil]
  show StableHlo.after hostOps1 _ (Proc.devRef .tc main_v96) = _
  after_results
  rw [show Pipeline.withArrays (cfgs 0).spec c (V0 m c) (fun w => (dats m 0 c).arrAt w (cfgs 0).N) (Proc.devRef .tc main_v88)
        = (dats m 0 c).arrAt 4 cfg0.N from Pipeline.withArrays_arr spec0 launch0.win.arr_inj c _ _ 4,
    final,
    Pipeline.withArrays_of_ne _ c (V0 m c) _ main_arg11 (by exact (by decide : ∀ w, Pipeline.arrRef spec0 w ≠ main_arg11))]
  rw [show V0 m c (Proc.devRef .tc main_arg11) = m ((c : Thread nD τ).loc main_arg11) from V_main_arg11 m c]
  rfl

/-- The host's tanh of an array, at an index. -/
theorem tanh_at {s : Shape} (v : FVec Ideal s .f32) (i : s.Idx) : Host.tanh v i = Ideal.tanh (v i) := rfl

/-- Entry o of the kernel's result: tanh of the two groups' totals and the second bias added up. -/
theorem result_apply (c : Dev nD) (o : Fin 32) :
    (Pipeline.afterTail₀ cfgs (dats m) 0 (V0 m) [hostOps1] c main_v96 : FVec Ideal S1x32 .f32) (ix2 0 o)
      = Mlp.outSplit (Acc.xrow m c) (Acc.wa m c) (Acc.bav m c) (Acc.wb m c) (fun o => bbK m c (ix1 o)) o := by
  refine (congrFun (result_term m c) (ix2 0 o)).trans ?_
  rw [tanh_at, addf_apply, addf_apply, shapeCast_1ab_ab_apply, shapeCast_1ab_ab_apply, shapeCast_a_1a_apply,
    extractStridedSlice_apply ![0, 0, 0] (totals m c) slices_S2x1x32_S1x1x32_0_0_0 (ix3 0 0 o) (ix3 0 0 o)
      (fun a => match a with
        | ⟨0, _⟩ => rfl
        | ⟨1, _⟩ => rfl
        | ⟨2, _⟩ => by show o.val = 0 + o.val; omega),
    extractStridedSlice_apply ![1, 0, 0] (totals m c) slices_S2x1x32_S1x1x32_1_0_0 (ix3 0 0 o) (ix3 1 0 o)
      (fun a => match a with
        | ⟨0, _⟩ => rfl
        | ⟨1, _⟩ => rfl
        | ⟨2, _⟩ => by show o.val = 0 + o.val; omega)]
  rfl

/-- The first bias as launched. -/
def baK (c : Dev nD) : FVec Ideal S16384 .f32 := m ((c : Thread nD τ).loc main_arg9)

set_option maxHeartbeats 4000000 in
/-- The one-row matrix of the first bias the region finds is the bias vector with a unit axis put in front. -/
theorem v87_eq (c : Dev nD) :
    (V m c main_v87 : FVec Ideal S1x16384 .f32) = shapeCast S1x16384 (baK m c) shapeCasts_S16384_S1x16384 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

/-- Its entry (0, k) is entry k of the bias. -/
theorem bav_eq (c : Dev nD) (k : Fin 16384) : Acc.bav m c k = baK m c (ix1 k) := by
  unfold Acc.bav
  rw [v87_eq, shapeCast_a_1a_apply]

end Cert.KernelIdeal.Result

end
-- ==== Proof.LibAfterStages.lean ====
/-
  A straight line of host operations, read in stretches.

  The contents of a device's buffers after a list of host operations are a fold over the list. For a list that is two
  stretches one after the other, the fold is the second stretch's fold over the first's. A buffer that no operation of
  a stretch writes comes through that stretch unchanged; the tactic below proves it for a literal stretch by comparing
  the buffer with each operation's result buffer.
-/
import Idealize.ShloMosaic.Lib.StableHlo.Run

namespace Idealize.ShloMosaic.StableHlo

variable {τ : Topo} {sig : RefSig} {Val : EltTy → Type}

/-- The fold over two stretches is the second's over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 'kept_through [L]' closes a goal 'after L V b = V b' for a literal stretch L (given by the names that unfold it)
    none of whose operations writes the buffer b. -/
macro "kept_through" "[" ds:Lean.Parser.Tactic.simpLemma,* "]" : tactic =>
  `(tactic| (
    refine after_of_forall_not_mem _ _ (List.forall_iff_forall_mem.mp ?_)
    simp only [$ds,*, List.Forall, nullary_writes, unary_writes, binary_writes, ternary_writes, quaternary_writes,
      reshape_writes, nary_writes, Finset.mem_singleton]
    repeat' apply And.intro
    all_goals exact devRef_ne_of_ne (by decide)))

end Idealize.ShloMosaic.StableHlo
-- ==== Proof.RefOps.lean ====
/-
  The reference program as a list of its host operations, in two stretches.

  The first stretch is the three graph-convolution layers (the degree normalisation is recomputed before every layer),
  ending in the row of 8192 node values; the second stretch is the two dense layers with tanh that follow: a product
  with the transposed first weight matrix, its bias, tanh, a product with the transposed second weight matrix, its
  bias, tanh.  The program is the two stretches run one after the other, so the contents of every buffer at the end
  are the second stretch's fold over the first's.
-/
import proofs.«127486_j46256797778021_2_alg».proof.Proof.Gen.ReferenceIdeal
import proofs.«127486_j46256797778021_2_alg».proof.Proof.LibAfterStages
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The graph-convolution stretch: 178 operations, the last one writing the row of node values. -/
abbrev opsGcn : List (HloOp τ sig (Elt F)) :=
  [ unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    reshape main_v0 main_v1 rfl shapeCasts_S1x524288_S524288,
    unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    reshape main_v2 main_v3 rfl shapeCasts_S1x524288_S524288,
    nullary main_v4 (iotaInDim S8192 32 0),
    binary main_v1 main_v4 main_v5 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    binary main_v3 main_v4 main_v6 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    nullary main_cst (constant S_ .f32 0x3F800000#32),
    unary main_cst main_v7 (broadcastInDim S532480 ![] bcast_S_S532480 : (⟨S_, .f32⟩ : BufTy).Contents (Elt F) → (⟨S532480, .f32⟩ : BufTy).Contents (Elt F)),
    nullary main_cst_0 (constant S_ .f32 0x00000000#32),
    unary main_cst_0 main_v8 (broadcastInDim S8192 ![] bcast_S_S8192 : (⟨S_, .f32⟩ : BufTy).Contents (Elt F) → (⟨S8192, .f32⟩ : BufTy).Contents (Elt F)),
    unary main_v6 main_v9 (broadcastInDim S532480x1 ![0] bcast_S532480_S532480x1_0 : (⟨S532480, .i32⟩ : BufTy).Contents (Elt F) → (⟨S532480x1, .i32⟩ : BufTy).Contents (Elt F)),
    ternary main_v8 main_v9 main_v7 main_v10 ((fun x i u => Host.scatterAdd scatter_S8192_S532480x1_S532480_n_0_0_1 x i u) : (⟨S8192, .f32⟩ : BufTy).Contents (Elt F) → (⟨S532480x1, .i32⟩ : BufTy).Contents (Elt F) → (⟨S532480, .f32⟩ : BufTy).Contents (Elt F) → (⟨S8192, .f32⟩ : BufTy).Contents (Elt F)),
    nullary main_cst_1 (constant S_ .f32 0x00000000#32),
    unary main_cst_1 main_v11 (broadcastInDim S8192 ![] bcast_S_S8192 : (⟨S_, .f32⟩ : BufTy).Contents (Elt F) → (⟨S8192, .f32⟩ : BufTy).Contents (Elt F)),
    binary main_v10 main_v11 main_v12 (cmpf .ogt : (⟨S8192, .f32⟩ : BufTy).Contents (Elt F) → (⟨S8192, .f32⟩ : BufTy).Contents (Elt F) → (⟨S8192, .i1⟩ : BufTy).Contents (Elt F)),
    unary main_v10 main_v13 (Host.rsqrt : (⟨S8192, .f32⟩ : BufTy).Contents (Elt F) → (⟨S8192, .f32⟩ : BufTy).Contents (Elt F)),
    nullary main_cst_2 (constant S_ .f32 0x00000000#32),
    unary main_cst_2 main_v14 (broadcastInDim S8192 ![] bcast_S_S8192 : (⟨S_, .f32⟩ : BufTy).Contents (Elt F) → (⟨S8192, .f32⟩ : BufTy).Contents (Elt F)),
    TRef.ternary (TRef.of (T := ⟨S8192, .i1⟩) main_v12) (TRef.of (T := ⟨S8192, .f32⟩) main_v13) (TRef.of (T := ⟨S8192, .f32⟩) main_v14) (TRef.of (T := ⟨S8192, .f32⟩) main_v15) select,
    nullary main_c (constantI S_ 32 0#32),
    unary main_c main_v16 (broadcastInDim S532480 ![] bcast_S_S532480 : (⟨S_, .i32⟩ : BufTy).Contents (Elt F) → (⟨S532480, .i32⟩ : BufTy).Contents (Elt F)),
    binary main_v5 main_v16 main_v17 (cmpi .slt : (⟨S532480, .i32⟩ : BufTy).Contents (Elt F) → (⟨S532480, .i32⟩ : BufTy).Contents (Elt F) → (⟨S532480, .i1⟩ : BufTy).Contents (Elt F)),
    nullary main_c_3 (constantI S_ 32 8192#32),
    unary main_c_3 main_v18 (broadcastInDim S532480 ![] bcast_S_S532480 : (⟨S_, .i32⟩ : BufTy).Contents (Elt F) → (⟨S532480, .i32⟩ : BufTy).Contents (Elt F)),
    binary main_v5 main_v18 main_v19 (addi : (⟨S532480, .i32⟩ : BufTy).Contents (Elt F) → (⟨S532480, .i32⟩ : BufTy).Contents (Elt F) → (⟨S532480, .i32⟩ : BufTy).Contents (Elt F)),
    ternary main_v17 main_v19 main_v5 main_v20 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v20 main_v21 (broadcastInDim S532480x1 ![0] bcast_S532480_S532480x1_0 : (⟨S532480, .i32⟩ : BufTy).Contents (Elt F) → (⟨S532480x1, .i32⟩ : BufTy).Contents (Elt F)),
    binary main_v15 main_v21 main_v22 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    nullary main_c_4 (constantI S_ 32 0#32),
    unary main_c_4 main_v23 (broadcastInDim S532480 ![] bcast_S_S532480 : (⟨S_, .i32⟩ : BufTy).Contents (Elt F) → (⟨S532480, .i32⟩ : BufTy).Contents (Elt F)),
    binary main_v6 main_v23 main_v24 (cmpi .slt : (⟨S532480, .i32⟩ : BufTy).Contents (Elt F) → (⟨S532480, .i32⟩ : BufTy).Contents (Elt F) → (⟨S532480, .i1⟩ : BufTy).Contents (Elt F)),
    nullary main_c_5 (constantI S_ 32 8192#32),
    unary main_c_5 main_v25 (broadcastInDim S532480 ![] bcast_S_S532480 : (⟨S_, .i32⟩ : BufTy).Contents (Elt F) → (⟨S532480, .i32⟩ : BufTy).Contents (Elt F)),
    binary main_v6 main_v25 main_v26 (addi : (⟨S532480, .i32⟩ : BufTy).Contents (Elt F) → (⟨S532480, .i32⟩ : BufTy).Contents (Elt F) → (⟨S532480, .i32⟩ : BufTy).Contents (Elt F)),
    ternary main_v24 main_v26 main_v6 main_v27 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v27 main_v28 (broadcastInDim S532480x1 ![0] bcast_S532480_S532480x1_0 : (⟨S532480, .i32⟩ : BufTy).Contents (Elt F) → (⟨S532480x1, .i32⟩ : BufTy).Contents (Elt F)),
    binary main_v15 main_v28 main_v29 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    binary main_v22 main_v29 main_v30 (mulf : (⟨S532480, .f32⟩ : BufTy).Contents (Elt F) → (⟨S532480, .f32⟩ : BufTy).Contents (Elt F) → (⟨S532480, .f32⟩ : BufTy).Contents (Elt F)),
    unary main_arg2 main_v31 ((transpose S2x4 [1, 0] · transposes_S4x2_S2x4_1_0) : (⟨S4x2, .f32⟩ : BufTy).Contents (Elt F) → (⟨S2x4, .f32⟩ : BufTy).Contents (Elt F)),
    binary main_arg0 main_v31 main_v32 ((fun l r => Host.dotGeneral dot_S8192x2_S2x4_S8192x4_1_0_0_1_n_n none l r) : (⟨S8192x2, .f32⟩ : BufTy).Contents (Elt F) → (⟨S2x4, .f32⟩ : BufTy).Contents (Elt F) → (⟨S8192x4, .f32⟩ : BufTy).Contents (Elt F)),
    unary main_v30 main_v33 (broadcastInDim S532480x1 ![0] bcast_S532480_S532480x1_0 : (⟨S532480, .f32⟩ : BufTy).Contents (Elt F) → (⟨S532480x1, .f32⟩ : BufTy).Contents (Elt F)),
    nullary main_c_6 (constantI S_ 32 0#32),
    unary main_c_6 main_v34 (broadcastInDim S532480 ![] bcast_S_S532480 : (⟨S_, .i32⟩ : BufTy).Contents (Elt F) → (⟨S532480, .i32⟩ : BufTy).Contents (Elt F)),
    binary main_v5 main_v34 main_v35 (cmpi .slt : (⟨S532480, .i32⟩ : BufTy).Contents (Elt F) → (⟨S532480, .i32⟩ : BufTy).Contents (Elt F) → (⟨S532480, .i1⟩ : BufTy).Contents (Elt F)),
    nullary main_c_7 (constantI S_ 32 8192#32),
    unary main_c_7 main_v36 (broadcastInDim S532480 ![] bcast_S_S532480 : (⟨S_, .i32⟩ : BufTy).Contents (Elt F) → (⟨S532480, .i32⟩ : BufTy).Contents (Elt F)),
    binary main_v5 main_v36 main_v37 (addi : (⟨S532480, .i32⟩ : BufTy).Contents (Elt F) → (⟨S532480, .i32⟩ : BufTy).Contents (Elt F) → (⟨S532480, .i32⟩ : BufTy).Contents (Elt F)),
    ternary main_v35 main_v37 main_v5 main_v38 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v38 main_v39 (broadcastInDim S532480x1 ![0] bcast_S532480_S532480x1_0 : (⟨S532480, .i32⟩ : BufTy).Contents (Elt F) → (⟨S532480x1, .i32⟩ : BufTy).Contents (Elt F)),
    binary main_v32 main_v39 main_v40 ((fun x i => Host.gather gather_S8192x4_S532480x1_S532480x4_1_0_n_n_0_1_14 x i) : (⟨S8192x4, .f32⟩ : BufTy).Contents (Elt F) → (⟨S532480x1, .i32⟩ : BufTy).Contents (Elt F) → (⟨S532480x4, .f32⟩ : BufTy).Contents (Elt F)),
    unary main_v33 main_v41 (broadcastInDim S532480x4 ![0, 1] bcast_S532480x1_S532480x4_0_1 : (⟨S532480x1, .f32⟩ : BufTy).Contents (Elt F) → (⟨S532480x4, .f32⟩ : BufTy).Contents (Elt F)),
    binary main_v41 main_v40 main_v42 (mulf : (⟨S532480x4, .f32⟩ : BufTy).Contents (Elt F) → (⟨S532480x4, .f32⟩ : BufTy).Contents (Elt F) → (⟨S532480x4, .f32⟩ : BufTy).Contents (Elt F)),
    nullary main_cst_8 (constant S_ .f32 0x00000000#32),
    unary main_cst_8 main_v43 (broadcastInDim S8192x4 ![] bcast_S_S8192x4 : (⟨S_, .f32⟩ : BufTy).Contents (Elt F) → (⟨S8192x4, .f32⟩ : BufTy).Contents (Elt F)),
    unary main_v6 main_v44 (broadcastInDim S532480x1 ![0] bcast_S532480_S532480x1_0 : (⟨S532480, .i32⟩ : BufTy).Contents (Elt F) → (⟨S532480x1, .i32⟩ : BufTy).Contents (Elt F)),
    ternary main_v43 main_v44 main_v42 main_v45 ((fun x i u => Host.scatterAdd scatter_S8192x4_S532480x1_S532480x4_1_0_0_1 x i u) : (⟨S8192x4, .f32⟩ : BufTy).Contents (Elt F) → (⟨S532480x1, .i32⟩ : BufTy).Contents (Elt F) → (⟨S532480x4, .f32⟩ : BufTy).Contents (Elt F) → (⟨S8192x4, .f32⟩ : BufTy).Contents (Elt F)),
    unary main_arg3 main_v46 (broadcastInDim S1x4 ![1] bcast_S4_S1x4_1 : (⟨S4, .f32⟩ : BufTy).Contents (Elt F) → (⟨S1x4, .f32⟩ : BufTy).Contents (Elt F)),
    unary main_v46 main_v47 (broadcastInDim S8192x4 ![0, 1] bcast_S1x4_S8192x4_0_1 : (⟨S1x4, .f32⟩ : BufTy).Contents (Elt F) → (⟨S8192x4, .f32⟩ : BufTy).Contents (Elt F)),
    binary main_v45 main_v47 main_v48 (addf : (⟨S8192x4, .f32⟩ : BufTy).Contents (Elt F) → (⟨S8192x4, .f32⟩ : BufTy).Contents (Elt F) → (⟨S8192x4, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x4, .f32⟩) main_call1_v0) (broadcastInDim S8192x4 ![] bcast_S_S8192x4),
    TRef.binary (TRef.of (T := ⟨S8192x4, .f32⟩) main_v48) (TRef.of (T := ⟨S8192x4, .f32⟩) main_call1_v0) (TRef.of (T := ⟨S8192x4, .f32⟩) main_v49) maximumf,
    nullary main_v50 (iotaInDim S8192 32 0),
    binary main_v1 main_v50 main_v51 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    binary main_v3 main_v50 main_v52 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    nullary main_cst_9 (constant S_ .f32 0x3F800000#32),
    unary main_cst_9 main_v53 (broadcastInDim S532480 ![] bcast_S_S532480 : (⟨S_, .f32⟩ : BufTy).Contents (Elt F) → (⟨S532480, .f32⟩ : BufTy).Contents (Elt F)),
    nullary main_cst_10 (constant S_ .f32 0x00000000#32),
    unary main_cst_10 main_v54 (broadcastInDim S8192 ![] bcast_S_S8192 : (⟨S_, .f32⟩ : BufTy).Contents (Elt F) → (⟨S8192, .f32⟩ : BufTy).Contents (Elt F)),
    unary main_v52 main_v55 (broadcastInDim S532480x1 ![0] bcast_S532480_S532480x1_0 : (⟨S532480, .i32⟩ : BufTy).Contents (Elt F) → (⟨S532480x1, .i32⟩ : BufTy).Contents (Elt F)),
    ternary main_v54 main_v55 main_v53 main_v56 ((fun x i u => Host.scatterAdd scatter_S8192_S532480x1_S532480_n_0_0_1 x i u) : (⟨S8192, .f32⟩ : BufTy).Contents (Elt F) → (⟨S532480x1, .i32⟩ : BufTy).Contents (Elt F) → (⟨S532480, .f32⟩ : BufTy).Contents (Elt F) → (⟨S8192, .f32⟩ : BufTy).Contents (Elt F)),
    nullary main_cst_11 (constant S_ .f32 0x00000000#32),
    unary main_cst_11 main_v57 (broadcastInDim S8192 ![] bcast_S_S8192 : (⟨S_, .f32⟩ : BufTy).Contents (Elt F) → (⟨S8192, .f32⟩ : BufTy).Contents (Elt F)),
    binary main_v56 main_v57 main_v58 (cmpf .ogt : (⟨S8192, .f32⟩ : BufTy).Contents (Elt F) → (⟨S8192, .f32⟩ : BufTy).Contents (Elt F) → (⟨S8192, .i1⟩ : BufTy).Contents (Elt F)),
    unary main_v56 main_v59 (Host.rsqrt : (⟨S8192, .f32⟩ : BufTy).Contents (Elt F) → (⟨S8192, .f32⟩ : BufTy).Contents (Elt F)),
    nullary main_cst_12 (constant S_ .f32 0x00000000#32),
    unary main_cst_12 main_v60 (broadcastInDim S8192 ![] bcast_S_S8192 : (⟨S_, .f32⟩ : BufTy).Contents (Elt F) → (⟨S8192, .f32⟩ : BufTy).Contents (Elt F)),
    TRef.ternary (TRef.of (T := ⟨S8192, .i1⟩) main_v58) (TRef.of (T := ⟨S8192, .f32⟩) main_v59) (TRef.of (T := ⟨S8192, .f32⟩) main_v60) (TRef.of (T := ⟨S8192, .f32⟩) main_v61) select,
    nullary main_c_13 (constantI S_ 32 0#32),
    unary main_c_13 main_v62 (broadcastInDim S532480 ![] bcast_S_S532480 : (⟨S_, .i32⟩ : BufTy).Contents (Elt F) → (⟨S532480, .i32⟩ : BufTy).Contents (Elt F)),
    binary main_v51 main_v62 main_v63 (cmpi .slt : (⟨S532480, .i32⟩ : BufTy).Contents (Elt F) → (⟨S532480, .i32⟩ : BufTy).Contents (Elt F) → (⟨S532480, .i1⟩ : BufTy).Contents (Elt F)),
    nullary main_c_14 (constantI S_ 32 8192#32),
    unary main_c_14 main_v64 (broadcastInDim S532480 ![] bcast_S_S532480 : (⟨S_, .i32⟩ : BufTy).Contents (Elt F) → (⟨S532480, .i32⟩ : BufTy).Contents (Elt F)),
    binary main_v51 main_v64 main_v65 (addi : (⟨S532480, .i32⟩ : BufTy).Contents (Elt F) → (⟨S532480, .i32⟩ : BufTy).Contents (Elt F) → (⟨S532480, .i32⟩ : BufTy).Contents (Elt F)),
    ternary main_v63 main_v65 main_v51 main_v66 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v66 main_v67 (broadcastInDim S532480x1 ![0] bcast_S532480_S532480x1_0 : (⟨S532480, .i32⟩ : BufTy).Contents (Elt F) → (⟨S532480x1, .i32⟩ : BufTy).Contents (Elt F)),
    binary main_v61 main_v67 main_v68 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    nullary main_c_15 (constantI S_ 32 0#32),
    unary main_c_15 main_v69 (broadcastInDim S532480 ![] bcast_S_S532480 : (⟨S_, .i32⟩ : BufTy).Contents (Elt F) → (⟨S532480, .i32⟩ : BufTy).Contents (Elt F)),
    binary main_v52 main_v69 main_v70 (cmpi .slt : (⟨S532480, .i32⟩ : BufTy).Contents (Elt F) → (⟨S532480, .i32⟩ : BufTy).Contents (Elt F) → (⟨S532480, .i1⟩ : BufTy).Contents (Elt F)),
    nullary main_c_16 (constantI S_ 32 8192#32),
    unary main_c_16 main_v71 (broadcastInDim S532480 ![] bcast_S_S532480 : (⟨S_, .i32⟩ : BufTy).Contents (Elt F) → (⟨S532480, .i32⟩ : BufTy).Contents (Elt F)),
    binary main_v52 main_v71 main_v72 (addi : (⟨S532480, .i32⟩ : BufTy).Contents (Elt F) → (⟨S532480, .i32⟩ : BufTy).Contents (Elt F) → (⟨S532480, .i32⟩ : BufTy).Contents (Elt F)),
    ternary main_v70 main_v72 main_v52 main_v73 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v73 main_v74 (broadcastInDim S532480x1 ![0] bcast_S532480_S532480x1_0 : (⟨S532480, .i32⟩ : BufTy).Contents (Elt F) → (⟨S532480x1, .i32⟩ : BufTy).Contents (Elt F)),
    binary main_v61 main_v74 main_v75 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    binary main_v68 main_v75 main_v76 (mulf : (⟨S532480, .f32⟩ : BufTy).Contents (Elt F) → (⟨S532480, .f32⟩ : BufTy).Contents (Elt F) → (⟨S532480, .f32⟩ : BufTy).Contents (Elt F)),
    unary main_arg4 main_v77 ((transpose S4x2 [1, 0] · transposes_S2x4_S4x2_1_0) : (⟨S2x4, .f32⟩ : BufTy).Contents (Elt F) → (⟨S4x2, .f32⟩ : BufTy).Contents (Elt F)),
    binary main_v49 main_v77 main_v78 ((fun l r => Host.dotGeneral dot_S8192x4_S4x2_S8192x2_1_0_0_1_n_n none l r) : (⟨S8192x4, .f32⟩ : BufTy).Contents (Elt F) → (⟨S4x2, .f32⟩ : BufTy).Contents (Elt F) → (⟨S8192x2, .f32⟩ : BufTy).Contents (Elt F)),
    unary main_v76 main_v79 (broadcastInDim S532480x1 ![0] bcast_S532480_S532480x1_0 : (⟨S532480, .f32⟩ : BufTy).Contents (Elt F) → (⟨S532480x1, .f32⟩ : BufTy).Contents (Elt F)),
    nullary main_c_17 (constantI S_ 32 0#32),
    unary main_c_17 main_v80 (broadcastInDim S532480 ![] bcast_S_S532480 : (⟨S_, .i32⟩ : BufTy).Contents (Elt F) → (⟨S532480, .i32⟩ : BufTy).Contents (Elt F)),
    binary main_v51 main_v80 main_v81 (cmpi .slt : (⟨S532480, .i32⟩ : BufTy).Contents (Elt F) → (⟨S532480, .i32⟩ : BufTy).Contents (Elt F) → (⟨S532480, .i1⟩ : BufTy).Contents (Elt F)),
    nullary main_c_18 (constantI S_ 32 8192#32),
    unary main_c_18 main_v82 (broadcastInDim S532480 ![] bcast_S_S532480 : (⟨S_, .i32⟩ : BufTy).Contents (Elt F) → (⟨S532480, .i32⟩ : BufTy).Contents (Elt F)),
    binary main_v51 main_v82 main_v83 (addi : (⟨S532480, .i32⟩ : BufTy).Contents (Elt F) → (⟨S532480, .i32⟩ : BufTy).Contents (Elt F) → (⟨S532480, .i32⟩ : BufTy).Contents (Elt F)),
    ternary main_v81 main_v83 main_v51 main_v84 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v84 main_v85 (broadcastInDim S532480x1 ![0] bcast_S532480_S532480x1_0 : (⟨S532480, .i32⟩ : BufTy).Contents (Elt F) → (⟨S532480x1, .i32⟩ : BufTy).Contents (Elt F)),
    binary main_v78 main_v85 main_v86 ((fun x i => Host.gather gather_S8192x2_S532480x1_S532480x2_1_0_n_n_0_1_12 x i) : (⟨S8192x2, .f32⟩ : BufTy).Contents (Elt F) → (⟨S532480x1, .i32⟩ : BufTy).Contents (Elt F) → (⟨S532480x2, .f32⟩ : BufTy).Contents (Elt F)),
    unary main_v79 main_v87 (broadcastInDim S532480x2 ![0, 1] bcast_S532480x1_S532480x2_0_1 : (⟨S532480x1, .f32⟩ : BufTy).Contents (Elt F) → (⟨S532480x2, .f32⟩ : BufTy).Contents (Elt F)),
    binary main_v87 main_v86 main_v88 (mulf : (⟨S532480x2, .f32⟩ : BufTy).Contents (Elt F) → (⟨S532480x2, .f32⟩ : BufTy).Contents (Elt F) → (⟨S532480x2, .f32⟩ : BufTy).Contents (Elt F)),
    nullary main_cst_19 (constant S_ .f32 0x00000000#32),
    unary main_cst_19 main_v89 (broadcastInDim S8192x2 ![] bcast_S_S8192x2 : (⟨S_, .f32⟩ : BufTy).Contents (Elt F) → (⟨S8192x2, .f32⟩ : BufTy).Contents (Elt F)),
    unary main_v52 main_v90 (broadcastInDim S532480x1 ![0] bcast_S532480_S532480x1_0 : (⟨S532480, .i32⟩ : BufTy).Contents (Elt F) → (⟨S532480x1, .i32⟩ : BufTy).Contents (Elt F)),
    ternary main_v89 main_v90 main_v88 main_v91 ((fun x i u => Host.scatterAdd scatter_S8192x2_S532480x1_S532480x2_1_0_0_1 x i u) : (⟨S8192x2, .f32⟩ : BufTy).Contents (Elt F) → (⟨S532480x1, .i32⟩ : BufTy).Contents (Elt F) → (⟨S532480x2, .f32⟩ : BufTy).Contents (Elt F) → (⟨S8192x2, .f32⟩ : BufTy).Contents (Elt F)),
    unary main_arg5 main_v92 (broadcastInDim S1x2 ![1] bcast_S2_S1x2_1 : (⟨S2, .f32⟩ : BufTy).Contents (Elt F) → (⟨S1x2, .f32⟩ : BufTy).Contents (Elt F)),
    unary main_v92 main_v93 (broadcastInDim S8192x2 ![0, 1] bcast_S1x2_S8192x2_0_1 : (⟨S1x2, .f32⟩ : BufTy).Contents (Elt F) → (⟨S8192x2, .f32⟩ : BufTy).Contents (Elt F)),
    binary main_v91 main_v93 main_v94 (addf : (⟨S8192x2, .f32⟩ : BufTy).Contents (Elt F) → (⟨S8192x2, .f32⟩ : BufTy).Contents (Elt F) → (⟨S8192x2, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x2, .f32⟩) main_call3_v0) (broadcastInDim S8192x2 ![] bcast_S_S8192x2),
    TRef.binary (TRef.of (T := ⟨S8192x2, .f32⟩) main_v94) (TRef.of (T := ⟨S8192x2, .f32⟩) main_call3_v0) (TRef.of (T := ⟨S8192x2, .f32⟩) main_v95) maximumf,
    nullary main_v96 (iotaInDim S8192 32 0),
    binary main_v1 main_v96 main_v97 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    binary main_v3 main_v96 main_v98 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    nullary main_cst_20 (constant S_ .f32 0x3F800000#32),
    unary main_cst_20 main_v99 (broadcastInDim S532480 ![] bcast_S_S532480 : (⟨S_, .f32⟩ : BufTy).Contents (Elt F) → (⟨S532480, .f32⟩ : BufTy).Contents (Elt F)),
    nullary main_cst_21 (constant S_ .f32 0x00000000#32),
    unary main_cst_21 main_v100 (broadcastInDim S8192 ![] bcast_S_S8192 : (⟨S_, .f32⟩ : BufTy).Contents (Elt F) → (⟨S8192, .f32⟩ : BufTy).Contents (Elt F)),
    unary main_v98 main_v101 (broadcastInDim S532480x1 ![0] bcast_S532480_S532480x1_0 : (⟨S532480, .i32⟩ : BufTy).Contents (Elt F) → (⟨S532480x1, .i32⟩ : BufTy).Contents (Elt F)),
    ternary main_v100 main_v101 main_v99 main_v102 ((fun x i u => Host.scatterAdd scatter_S8192_S532480x1_S532480_n_0_0_1 x i u) : (⟨S8192, .f32⟩ : BufTy).Contents (Elt F) → (⟨S532480x1, .i32⟩ : BufTy).Contents (Elt F) → (⟨S532480, .f32⟩ : BufTy).Contents (Elt F) → (⟨S8192, .f32⟩ : BufTy).Contents (Elt F)),
    nullary main_cst_22 (constant S_ .f32 0x00000000#32),
    unary main_cst_22 main_v103 (broadcastInDim S8192 ![] bcast_S_S8192 : (⟨S_, .f32⟩ : BufTy).Contents (Elt F) → (⟨S8192, .f32⟩ : BufTy).Contents (Elt F)),
    binary main_v102 main_v103 main_v104 (cmpf .ogt : (⟨S8192, .f32⟩ : BufTy).Contents (Elt F) → (⟨S8192, .f32⟩ : BufTy).Contents (Elt F) → (⟨S8192, .i1⟩ : BufTy).Contents (Elt F)),
    unary main_v102 main_v105 (Host.rsqrt : (⟨S8192, .f32⟩ : BufTy).Contents (Elt F) → (⟨S8192, .f32⟩ : BufTy).Contents (Elt F)),
    nullary main_cst_23 (constant S_ .f32 0x00000000#32),
    unary main_cst_23 main_v106 (broadcastInDim S8192 ![] bcast_S_S8192 : (⟨S_, .f32⟩ : BufTy).Contents (Elt F) → (⟨S8192, .f32⟩ : BufTy).Contents (Elt F)),
    TRef.ternary (TRef.of (T := ⟨S8192, .i1⟩) main_v104) (TRef.of (T := ⟨S8192, .f32⟩) main_v105) (TRef.of (T := ⟨S8192, .f32⟩) main_v106) (TRef.of (T := ⟨S8192, .f32⟩) main_v107) select,
    nullary main_c_24 (constantI S_ 32 0#32),
    unary main_c_24 main_v108 (broadcastInDim S532480 ![] bcast_S_S532480 : (⟨S_, .i32⟩ : BufTy).Contents (Elt F) → (⟨S532480, .i32⟩ : BufTy).Contents (Elt F)),
    binary main_v97 main_v108 main_v109 (cmpi .slt : (⟨S532480, .i32⟩ : BufTy).Contents (Elt F) → (⟨S532480, .i32⟩ : BufTy).Contents (Elt F) → (⟨S532480, .i1⟩ : BufTy).Contents (Elt F)),
    nullary main_c_25 (constantI S_ 32 8192#32),
    unary main_c_25 main_v110 (broadcastInDim S532480 ![] bcast_S_S532480 : (⟨S_, .i32⟩ : BufTy).Contents (Elt F) → (⟨S532480, .i32⟩ : BufTy).Contents (Elt F)),
    binary main_v97 main_v110 main_v111 (addi : (⟨S532480, .i32⟩ : BufTy).Contents (Elt F) → (⟨S532480, .i32⟩ : BufTy).Contents (Elt F) → (⟨S532480, .i32⟩ : BufTy).Contents (Elt F)),
    ternary main_v109 main_v111 main_v97 main_v112 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v112 main_v113 (broadcastInDim S532480x1 ![0] bcast_S532480_S532480x1_0 : (⟨S532480, .i32⟩ : BufTy).Contents (Elt F) → (⟨S532480x1, .i32⟩ : BufTy).Contents (Elt F)),
    binary main_v107 main_v113 main_v114 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    nullary main_c_26 (constantI S_ 32 0#32),
    unary main_c_26 main_v115 (broadcastInDim S532480 ![] bcast_S_S532480 : (⟨S_, .i32⟩ : BufTy).Contents (Elt F) → (⟨S532480, .i32⟩ : BufTy).Contents (Elt F)),
    binary main_v98 main_v115 main_v116 (cmpi .slt : (⟨S532480, .i32⟩ : BufTy).Contents (Elt F) → (⟨S532480, .i32⟩ : BufTy).Contents (Elt F) → (⟨S532480, .i1⟩ : BufTy).Contents (Elt F)),
    nullary main_c_27 (constantI S_ 32 8192#32),
    unary main_c_27 main_v117 (broadcastInDim S532480 ![] bcast_S_S532480 : (⟨S_, .i32⟩ : BufTy).Contents (Elt F) → (⟨S532480, .i32⟩ : BufTy).Contents (Elt F)),
    binary main_v98 main_v117 main_v118 (addi : (⟨S532480, .i32⟩ : BufTy).Contents (Elt F) → (⟨S532480, .i32⟩ : BufTy).Contents (Elt F) → (⟨S532480, .i32⟩ : BufTy).Contents (Elt F)),
    ternary main_v116 main_v118 main_v98 main_v119 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v119 main_v120 (broadcastInDim S532480x1 ![0] bcast_S532480_S532480x1_0 : (⟨S532480, .i32⟩ : BufTy).Contents (Elt F) → (⟨S532480x1, .i32⟩ : BufTy).Contents (Elt F)),
    binary main_v107 main_v120 main_v121 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    binary main_v114 main_v121 main_v122 (mulf : (⟨S532480, .f32⟩ : BufTy).Contents (Elt F) → (⟨S532480, .f32⟩ : BufTy).Contents (Elt F) → (⟨S532480, .f32⟩ : BufTy).Contents (Elt F)),
    unary main_arg6 main_v123 ((transpose S2x1 [1, 0] · transposes_S1x2_S2x1_1_0) : (⟨S1x2, .f32⟩ : BufTy).Contents (Elt F) → (⟨S2x1, .f32⟩ : BufTy).Contents (Elt F)),
    binary main_v95 main_v123 main_v124 ((fun l r => Host.dotGeneral dot_S8192x2_S2x1_S8192x1_1_0_0_1_n_n none l r) : (⟨S8192x2, .f32⟩ : BufTy).Contents (Elt F) → (⟨S2x1, .f32⟩ : BufTy).Contents (Elt F) → (⟨S8192x1, .f32⟩ : BufTy).Contents (Elt F)),
    unary main_v122 main_v125 (broadcastInDim S532480x1 ![0] bcast_S532480_S532480x1_0 : (⟨S532480, .f32⟩ : BufTy).Contents (Elt F) → (⟨S532480x1, .f32⟩ : BufTy).Contents (Elt F)),
    nullary main_c_28 (constantI S_ 32 0#32),
    unary main_c_28 main_v126 (broadcastInDim S532480 ![] bcast_S_S532480 : (⟨S_, .i32⟩ : BufTy).Contents (Elt F) → (⟨S532480, .i32⟩ : BufTy).Contents (Elt F)),
    binary main_v97 main_v126 main_v127 (cmpi .slt : (⟨S532480, .i32⟩ : BufTy).Contents (Elt F) → (⟨S532480, .i32⟩ : BufTy).Contents (Elt F) → (⟨S532480, .i1⟩ : BufTy).Contents (Elt F)),
    nullary main_c_29 (constantI S_ 32 8192#32),
    unary main_c_29 main_v128 (broadcastInDim S532480 ![] bcast_S_S532480 : (⟨S_, .i32⟩ : BufTy).Contents (Elt F) → (⟨S532480, .i32⟩ : BufTy).Contents (Elt F)),
    binary main_v97 main_v128 main_v129 (addi : (⟨S532480, .i32⟩ : BufTy).Contents (Elt F) → (⟨S532480, .i32⟩ : BufTy).Contents (Elt F) → (⟨S532480, .i32⟩ : BufTy).Contents (Elt F)),
    ternary main_v127 main_v129 main_v97 main_v130 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    unary main_v130 main_v131 (broadcastInDim S532480x1 ![0] bcast_S532480_S532480x1_0 : (⟨S532480, .i32⟩ : BufTy).Contents (Elt F) → (⟨S532480x1, .i32⟩ : BufTy).Contents (Elt F)),
    binary main_v124 main_v131 main_v132 ((fun x i => Host.gather gather_S8192x1_S532480x1_S532480x1_1_0_n_n_0_1_11 x i) : (⟨S8192x1, .f32⟩ : BufTy).Contents (Elt F) → (⟨S532480x1, .i32⟩ : BufTy).Contents (Elt F) → (⟨S532480x1, .f32⟩ : BufTy).Contents (Elt F)),
    binary main_v125 main_v132 main_v133 (mulf : (⟨S532480x1, .f32⟩ : BufTy).Contents (Elt F) → (⟨S532480x1, .f32⟩ : BufTy).Contents (Elt F) → (⟨S532480x1, .f32⟩ : BufTy).Contents (Elt F)),
    nullary main_cst_30 (constant S_ .f32 0x00000000#32),
    unary main_cst_30 main_v134 (broadcastInDim S8192x1 ![] bcast_S_S8192x1 : (⟨S_, .f32⟩ : BufTy).Contents (Elt F) → (⟨S8192x1, .f32⟩ : BufTy).Contents (Elt F)),
    unary main_v98 main_v135 (broadcastInDim S532480x1 ![0] bcast_S532480_S532480x1_0 : (⟨S532480, .i32⟩ : BufTy).Contents (Elt F) → (⟨S532480x1, .i32⟩ : BufTy).Contents (Elt F)),
    ternary main_v134 main_v135 main_v133 main_v136 ((fun x i u => Host.scatterAdd scatter_S8192x1_S532480x1_S532480x1_1_0_0_1 x i u) : (⟨S8192x1, .f32⟩ : BufTy).Contents (Elt F) → (⟨S532480x1, .i32⟩ : BufTy).Contents (Elt F) → (⟨S532480x1, .f32⟩ : BufTy).Contents (Elt F) → (⟨S8192x1, .f32⟩ : BufTy).Contents (Elt F)),
    unary main_arg7 main_v137 (broadcastInDim S1x1 ![1] bcast_S1_S1x1_1 : (⟨S1, .f32⟩ : BufTy).Contents (Elt F) → (⟨S1x1, .f32⟩ : BufTy).Contents (Elt F)),
    unary main_v137 main_v138 (broadcastInDim S8192x1 ![0, 1] bcast_S1x1_S8192x1_0_1 : (⟨S1x1, .f32⟩ : BufTy).Contents (Elt F) → (⟨S8192x1, .f32⟩ : BufTy).Contents (Elt F)),
    binary main_v136 main_v138 main_v139 (addf : (⟨S8192x1, .f32⟩ : BufTy).Contents (Elt F) → (⟨S8192x1, .f32⟩ : BufTy).Contents (Elt F) → (⟨S8192x1, .f32⟩ : BufTy).Contents (Elt F)),
    reshape main_v139 main_v140 rfl shapeCasts_S8192x1_S1x8192 ]

/-- The dense stretch: 10 operations, the last one writing the result. -/
abbrev opsMlp : List (HloOp τ sig (Elt F)) :=
  [ unary main_arg8 main_v141 ((transpose S8192x16384 [1, 0] · transposes_S16384x8192_S8192x16384_1_0) : (⟨S16384x8192, .f32⟩ : BufTy).Contents (Elt F) → (⟨S8192x16384, .f32⟩ : BufTy).Contents (Elt F)),
    binary main_v140 main_v141 main_v142 ((fun l r => Host.dotGeneral dot_S1x8192_S8192x16384_S1x16384_1_0_0_1_n_n none l r) : (⟨S1x8192, .f32⟩ : BufTy).Contents (Elt F) → (⟨S8192x16384, .f32⟩ : BufTy).Contents (Elt F) → (⟨S1x16384, .f32⟩ : BufTy).Contents (Elt F)),
    unary main_arg9 main_v143 (broadcastInDim S1x16384 ![1] bcast_S16384_S1x16384_1 : (⟨S16384, .f32⟩ : BufTy).Contents (Elt F) → (⟨S1x16384, .f32⟩ : BufTy).Contents (Elt F)),
    binary main_v142 main_v143 main_v144 (addf : (⟨S1x16384, .f32⟩ : BufTy).Contents (Elt F) → (⟨S1x16384, .f32⟩ : BufTy).Contents (Elt F) → (⟨S1x16384, .f32⟩ : BufTy).Contents (Elt F)),
    unary main_v144 main_v145 (Host.tanh : (⟨S1x16384, .f32⟩ : BufTy).Contents (Elt F) → (⟨S1x16384, .f32⟩ : BufTy).Contents (Elt F)),
    unary main_arg10 main_v146 ((transpose S16384x32 [1, 0] · transposes_S32x16384_S16384x32_1_0) : (⟨S32x16384, .f32⟩ : BufTy).Contents (Elt F) → (⟨S16384x32, .f32⟩ : BufTy).Contents (Elt F)),
    binary main_v145 main_v146 main_v147 ((fun l r => Host.dotGeneral dot_S1x16384_S16384x32_S1x32_1_0_0_1_n_n none l r) : (⟨S1x16384, .f32⟩ : BufTy).Contents (Elt F) → (⟨S16384x32, .f32⟩ : BufTy).Contents (Elt F) → (⟨S1x32, .f32⟩ : BufTy).Contents (Elt F)),
    unary main_arg11 main_v148 (broadcastInDim S1x32 ![1] bcast_S32_S1x32_1 : (⟨S32, .f32⟩ : BufTy).Contents (Elt F) → (⟨S1x32, .f32⟩ : BufTy).Contents (Elt F)),
    binary main_v147 main_v148 main_v149 (addf : (⟨S1x32, .f32⟩ : BufTy).Contents (Elt F) → (⟨S1x32, .f32⟩ : BufTy).Contents (Elt F) → (⟨S1x32, .f32⟩ : BufTy).Contents (Elt F)),
    unary main_v149 main_v150 (Host.tanh : (⟨S1x32, .f32⟩ : BufTy).Contents (Elt F) → (⟨S1x32, .f32⟩ : BufTy).Contents (Elt F)) ]

/-- All the operations, in order. -/
abbrev ops : List (HloOp τ sig (Elt F)) := opsGcn ++ opsMlp

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsGcn_sub : (opsGcn : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., unary_bufs_sub .., binary_bufs_sub .., reshape_bufs_sub ..⟩

theorem opsMlp_sub : (opsMlp : List (HloOp τ sig (Elt F))).Forall fun op => op.bufs ⊆ tcRefs τ sig :=
  ⟨unary_bufs_sub .., binary_bufs_sub .., unary_bufs_sub .., binary_bufs_sub .., unary_bufs_sub .., unary_bufs_sub .., binary_bufs_sub .., unary_bufs_sub .., binary_bufs_sub .., unary_bufs_sub ..⟩

set_option maxRecDepth 8192 in
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsGcn_sub op h
    · exact List.forall_iff_forall_mem.mp opsMlp_sub op h

end Cert.ReferenceIdeal.RefOps

end
-- ==== Proof.RefRun.lean ====
/-
  The reference program's run, read back.

  Every weakly fair execution of the reference terminates, and each buffer ends at the fold of the operations over the
  launch contents: the dense stretch's fold over the graph-convolution stretch's.  No operation writes an argument
  array, so the arguments end as launched.
-/
import proofs.«127486_j46256797778021_2_alg».proof.Proof.RefOps

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- The buffers' contents after the graph-convolution stretch. -/
def mid (m : (ℓ : Loc nD τ sig) → Buf (Elt F) ℓ) (c : Dev nD) : Valuation τ sig (Elt F) :=
  after opsGcn (launchContents m c)

/-- The contents of buffer b at the end. -/
def ends (m : (ℓ : Loc nD τ sig) → Buf (Elt F) ℓ) (c : Dev nD) (b : Ref sig .tc) :
    Buf (Elt F) ((c.tc : Thread nD τ).loc b) :=
  after opsMlp (mid m c) (Proc.devRef .tc b)

theorem opsGcn_fresh : (opsGcn : List (HloOp τ sig (Elt F))).Forall fun op => op.fresh = ∅ := by
  simp only [List.Forall]; repeat' constructor

theorem opsMlp_fresh : (opsMlp : List (HloOp τ sig (Elt F))).Forall fun op => op.fresh = ∅ := by
  simp only [List.Forall]; repeat' constructor

/-- Every weakly fair execution terminates with every buffer at the fold of the two stretches. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = ends m c b :=
  (θ_run defs _ _).mono (fun _ h c b => (h c b).trans (congrFun (after_append opsGcn opsMlp _) _))
    (run_seq scopedRefs_eq scopedSems_eq defs main (fun _ => ops) main_eq (fun _ => ops_sub) m ρ
      (hfresh := fun _ op h => by
        rcases List.mem_append.mp h with h | h
        · exact List.forall_iff_forall_mem.mp opsGcn_fresh op h
        · exact List.forall_iff_forall_mem.mp opsMlp_fresh op h))

theorem kept_arg0 (m : (ℓ : Loc nD τ sig) → Buf (Elt F) ℓ) (c : Dev nD) :
    ends m c main_arg0 = m ((c.tc : Thread nD τ).loc main_arg0) := by
  unfold ends mid
  refine (show after opsMlp _ (Proc.devRef .tc main_arg0) = after opsGcn (launchContents m c) (Proc.devRef .tc main_arg0) from by kept_through [opsMlp]).trans ?_
  exact (show after opsGcn (launchContents m c) (Proc.devRef .tc main_arg0) = launchContents m c (Proc.devRef .tc main_arg0) from by kept_through [opsGcn])

theorem kept_arg1 (m : (ℓ : Loc nD τ sig) → Buf (Elt F) ℓ) (c : Dev nD) :
    ends m c main_arg1 = m ((c.tc : Thread nD τ).loc main_arg1) := by
  unfold ends mid
  refine (show after opsMlp _ (Proc.devRef .tc main_arg1) = after opsGcn (launchContents m c) (Proc.devRef .tc main_arg1) from by kept_through [opsMlp]).trans ?_
  exact (show after opsGcn (launchContents m c) (Proc.devRef .tc main_arg1) = launchContents m c (Proc.devRef .tc main_arg1) from by kept_through [opsGcn])

theorem kept_arg2 (m : (ℓ : Loc nD τ sig) → Buf (Elt F) ℓ) (c : Dev nD) :
    ends m c main_arg2 = m ((c.tc : Thread nD τ).loc main_arg2) := by
  unfold ends mid
  refine (show after opsMlp _ (Proc.devRef .tc main_arg2) = after opsGcn (launchContents m c) (Proc.devRef .tc main_arg2) from by kept_through [opsMlp]).trans ?_
  exact (show after opsGcn (launchContents m c) (Proc.devRef .tc main_arg2) = launchContents m c (Proc.devRef .tc main_arg2) from by kept_through [opsGcn])

theorem kept_arg3 (m : (ℓ : Loc nD τ sig) → Buf (Elt F) ℓ) (c : Dev nD) :
    ends m c main_arg3 = m ((c.tc : Thread nD τ).loc main_arg3) := by
  unfold ends mid
  refine (show after opsMlp _ (Proc.devRef .tc main_arg3) = after opsGcn (launchContents m c) (Proc.devRef .tc main_arg3) from by kept_through [opsMlp]).trans ?_
  exact (show after opsGcn (launchContents m c) (Proc.devRef .tc main_arg3) = launchContents m c (Proc.devRef .tc main_arg3) from by kept_through [opsGcn])

theorem kept_arg4 (m : (ℓ : Loc nD τ sig) → Buf (Elt F) ℓ) (c : Dev nD) :
    ends m c main_arg4 = m ((c.tc : Thread nD τ).loc main_arg4) := by
  unfold ends mid
  refine (show after opsMlp _ (Proc.devRef .tc main_arg4) = after opsGcn (launchContents m c) (Proc.devRef .tc main_arg4) from by kept_through [opsMlp]).trans ?_
  exact (show after opsGcn (launchContents m c) (Proc.devRef .tc main_arg4) = launchContents m c (Proc.devRef .tc main_arg4) from by kept_through [opsGcn])

theorem kept_arg5 (m : (ℓ : Loc nD τ sig) → Buf (Elt F) ℓ) (c : Dev nD) :
    ends m c main_arg5 = m ((c.tc : Thread nD τ).loc main_arg5) := by
  unfold ends mid
  refine (show after opsMlp _ (Proc.devRef .tc main_arg5) = after opsGcn (launchContents m c) (Proc.devRef .tc main_arg5) from by kept_through [opsMlp]).trans ?_
  exact (show after opsGcn (launchContents m c) (Proc.devRef .tc main_arg5) = launchContents m c (Proc.devRef .tc main_arg5) from by kept_through [opsGcn])

theorem kept_arg6 (m : (ℓ : Loc nD τ sig) → Buf (Elt F) ℓ) (c : Dev nD) :
    ends m c main_arg6 = m ((c.tc : Thread nD τ).loc main_arg6) := by
  unfold ends mid
  refine (show after opsMlp _ (Proc.devRef .tc main_arg6) = after opsGcn (launchContents m c) (Proc.devRef .tc main_arg6) from by kept_through [opsMlp]).trans ?_
  exact (show after opsGcn (launchContents m c) (Proc.devRef .tc main_arg6) = launchContents m c (Proc.devRef .tc main_arg6) from by kept_through [opsGcn])

theorem kept_arg7 (m : (ℓ : Loc nD τ sig) → Buf (Elt F) ℓ) (c : Dev nD) :
    ends m c main_arg7 = m ((c.tc : Thread nD τ).loc main_arg7) := by
  unfold ends mid
  refine (show after opsMlp _ (Proc.devRef .tc main_arg7) = after opsGcn (launchContents m c) (Proc.devRef .tc main_arg7) from by kept_through [opsMlp]).trans ?_
  exact (show after opsGcn (launchContents m c) (Proc.devRef .tc main_arg7) = launchContents m c (Proc.devRef .tc main_arg7) from by kept_through [opsGcn])

theorem kept_arg8 (m : (ℓ : Loc nD τ sig) → Buf (Elt F) ℓ) (c : Dev nD) :
    ends m c main_arg8 = m ((c.tc : Thread nD τ).loc main_arg8) := by
  unfold ends mid
  refine (show after opsMlp _ (Proc.devRef .tc main_arg8) = after opsGcn (launchContents m c) (Proc.devRef .tc main_arg8) from by kept_through [opsMlp]).trans ?_
  exact (show after opsGcn (launchContents m c) (Proc.devRef .tc main_arg8) = launchContents m c (Proc.devRef .tc main_arg8) from by kept_through [opsGcn])

theorem kept_arg9 (m : (ℓ : Loc nD τ sig) → Buf (Elt F) ℓ) (c : Dev nD) :
    ends m c main_arg9 = m ((c.tc : Thread nD τ).loc main_arg9) := by
  unfold ends mid
  refine (show after opsMlp _ (Proc.devRef .tc main_arg9) = after opsGcn (launchContents m c) (Proc.devRef .tc main_arg9) from by kept_through [opsMlp]).trans ?_
  exact (show after opsGcn (launchContents m c) (Proc.devRef .tc main_arg9) = launchContents m c (Proc.devRef .tc main_arg9) from by kept_through [opsGcn])

theorem kept_arg10 (m : (ℓ : Loc nD τ sig) → Buf (Elt F) ℓ) (c : Dev nD) :
    ends m c main_arg10 = m ((c.tc : Thread nD τ).loc main_arg10) := by
  unfold ends mid
  refine (show after opsMlp _ (Proc.devRef .tc main_arg10) = after opsGcn (launchContents m c) (Proc.devRef .tc main_arg10) from by kept_through [opsMlp]).trans ?_
  exact (show after opsGcn (launchContents m c) (Proc.devRef .tc main_arg10) = launchContents m c (Proc.devRef .tc main_arg10) from by kept_through [opsGcn])

theorem kept_arg11 (m : (ℓ : Loc nD τ sig) → Buf (Elt F) ℓ) (c : Dev nD) :
    ends m c main_arg11 = m ((c.tc : Thread nD τ).loc main_arg11) := by
  unfold ends mid
  refine (show after opsMlp _ (Proc.devRef .tc main_arg11) = after opsGcn (launchContents m c) (Proc.devRef .tc main_arg11) from by kept_through [opsMlp]).trans ?_
  exact (show after opsGcn (launchContents m c) (Proc.devRef .tc main_arg11) = launchContents m c (Proc.devRef .tc main_arg11) from by kept_through [opsGcn])

end Cert.ReferenceIdeal.RefRun

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibRowsTransposed.lean ====
/-
  Rows against rows.

  For x of shape [a, n] and w of shape [b, n] — a table of a rows and a table of b rows, all of length n — the table of
  inner products has shape [a, b] and entry (p, e) = sum over k < n of x(p, k) * w(e, k): it is x times the transpose
  of w. On the extended reals both spellings of "multiply by the transpose" are exactly this table, with the factors
  in this order and nothing assumed finite: the matrix unit's product of x with the transposed w into a zero
  accumulator (the operands may be held in shorter float formats: a change of format is the identity there), and the
  host's contraction of axis 1 of x with axis 0 of the transposed w.
-/
import Idealize.ShloMosaic.PureOps.Ideal.Laws
import Idealize.ShloMosaic.Lib.ValueIdx
import Idealize.ShloMosaic.Lib.ValueLayout
import proofs.«127486_j46256797778021_2_alg».proof.Proof.LibColsMatmul

noncomputable section

namespace Cert.RowsTransposed

open Idealize.ShloMosaic Idealize.ShloMosaic.ValueIdx Cert.ColsMatmul

variable {a b n : ℕ}

/-- The table of inner products of the rows of x with the rows of w. -/
def rowsDot (x : (⟨2, ![a, n]⟩ : Shape).Idx → EReal) (w : (⟨2, ![b, n]⟩ : Shape).Idx → EReal) :
    (⟨2, ![a, b]⟩ : Shape).Idx → EReal :=
  fun i => ∑ k : Fin n, x (ix2 (i 0) k) * w (ix2 (i 1) k)

/-- Its entry at row p, column e. -/
theorem rowsDot_apply (x : (⟨2, ![a, n]⟩ : Shape).Idx → EReal) (w : (⟨2, ![b, n]⟩ : Shape).Idx → EReal) (p : Fin a) (e : Fin b) :
    rowsDot x w (ix2 p e) = ∑ k : Fin n, x (ix2 p k) * w (ix2 e k) := rfl

/-- A sum of products whose factors are, term by term, the entries of row (i 0) of x and of row (i 1) of w is the
    entry of the table at i. -/
theorem sum_eq_rowsDot (x : (⟨2, ![a, n]⟩ : Shape).Idx → EReal) (w : (⟨2, ![b, n]⟩ : Shape).Idx → EReal)
    (i : (⟨2, ![a, b]⟩ : Shape).Idx) (X Y : Fin n → EReal)
    (hX : ∀ k, X k = x (ix2 (i 0) k)) (hY : ∀ k, Y k = w (ix2 (i 1) k)) :
    ∑ k : Fin n, X k * Y k = rowsDot x w i :=
  Finset.sum_congr rfl fun k _ => by rw [hX k, hY k]

variable (wf : DotDims.WF ⟨2, ![a, n]⟩ ⟨2, ![n, b]⟩ ⟨2, ![a, b]⟩ [1] [0] [0] [1] [] [])

/-- The matrix unit's product of x with the transposed w into the zero accumulator, at (p, e): the inner product of
    row p of x with row e of w. -/
theorem matmul_transposed {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![b, n]⟩ φ₂)
    (htr : (⟨2, ![b, n]⟩ : Shape).Transposes [1, 0] ⟨2, ![n, b]⟩) (p : Fin a) (e : Fin b) :
    FloatOps.matmul d none x (transpose ⟨2, ![n, b]⟩ [1, 0] w htr) (constant ⟨2, ![a, b]⟩ .f32 0x00000000#32) (ix2 p e)
      = ∑ k : Fin n, x (ix2 p k) * w (ix2 e k) := by
  refine (cols_matmul wf d hd x (transpose ⟨2, ![n, b]⟩ [1, 0] w htr) p e).trans ?_
  exact Finset.sum_congr rfl fun k _ => congrArg (x (ix2 p k) * ·) (transpose_ix2_apply w htr k e)

/-- The host's contraction of axis 1 of x with axis 0 of the transposed w is the table of inner products. -/
theorem dotGeneral_transposed {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![b, n]⟩ φ₂)
    (htr : (⟨2, ![b, n]⟩ : Shape).Transposes [1, 0] ⟨2, ![n, b]⟩) :
    Host.dotGeneral d none x (transpose ⟨2, ![n, b]⟩ [1, 0] w htr) = rowsDot x w := by
  subst hd
  funext i
  obtain ⟨p, e, rfl⟩ : ∃ (p : Fin a) (e : Fin b), i = ix2 p e := ⟨i 0, i 1, eq_ix2 i⟩
  refine (Ideal.dotGeneral_apply (colsDims wf) none _ x (transpose ⟨2, ![n, b]⟩ [1, 0] w htr) (ix2 p e)).trans ?_
  refine (contraction_cols wf x (transpose ⟨2, ![n, b]⟩ [1, 0] w htr) p e).trans ?_
  exact Finset.sum_congr rfl fun k _ => congrArg (x (ix2 p k) * ·) (transpose_ix2_apply w htr k e)

end Cert.RowsTransposed

end
-- ==== Proof.RefTail.lean ====
/-
  The reference's result, entry by entry.

  After the graph-convolution stretch the reference holds a row of 8192 node values.  The dense stretch multiplies
  it by the transposed first weight matrix — at hidden unit k the inner product of the row with row k of the
  matrix —, adds bias k, takes tanh, multiplies by the transposed second weight matrix, adds the second bias and
  takes tanh again.  So entry o of the result is the two-layer perceptron's output o of the node row.
-/
import proofs.«127486_j46256797778021_2_alg».proof.Proof.RefRun
import proofs.«127486_j46256797778021_2_alg».proof.Proof.LibRowsTransposed
import proofs.«127486_j46256797778021_2_alg».proof.Proof.MlpSums
import Idealize.ShloMosaic.Lib.Pipeline.Value
import Idealize.ShloMosaic.Lib.ValueIdx

set_option maxRecDepth 8192

noncomputable section

namespace Cert.ReferenceIdeal.RefTail

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo
open Idealize.ShloMosaic.ValueIdx Cert.RowsTransposed

variable (m : (ℓ : Loc nD τ sig) → Buf (Elt Ideal) ℓ)

/-- The row of node values the graph-convolution stretch ends with. -/
def nodeRow (c : Dev nD) : FVec Ideal S1x8192 .f32 := mid m c (Proc.devRef .tc main_v140)

theorem mid_arg8 (c : Dev nD) : mid m c (Proc.devRef .tc main_arg8) = m ((c.tc : Thread nD τ).loc main_arg8) := by
  unfold mid
  exact (show after opsGcn (launchContents m c) (Proc.devRef .tc main_arg8) = launchContents m c (Proc.devRef .tc main_arg8) from by kept_through [opsGcn])
theorem mid_arg9 (c : Dev nD) : mid m c (Proc.devRef .tc main_arg9) = m ((c.tc : Thread nD τ).loc main_arg9) := by
  unfold mid
  exact (show after opsGcn (launchContents m c) (Proc.devRef .tc main_arg9) = launchContents m c (Proc.devRef .tc main_arg9) from by kept_through [opsGcn])
theorem mid_arg10 (c : Dev nD) : mid m c (Proc.devRef .tc main_arg10) = m ((c.tc : Thread nD τ).loc main_arg10) := by
  unfold mid
  exact (show after opsGcn (launchContents m c) (Proc.devRef .tc main_arg10) = launchContents m c (Proc.devRef .tc main_arg10) from by kept_through [opsGcn])
theorem mid_arg11 (c : Dev nD) : mid m c (Proc.devRef .tc main_arg11) = m ((c.tc : Thread nD τ).loc main_arg11) := by
  unfold mid
  exact (show after opsGcn (launchContents m c) (Proc.devRef .tc main_arg11) = launchContents m c (Proc.devRef .tc main_arg11) from by kept_through [opsGcn])

/-- The four weight arrays as launched. -/
def waR (c : Dev nD) : FVec Ideal S16384x8192 .f32 := m ((c.tc : Thread nD τ).loc main_arg8)
def baR (c : Dev nD) : FVec Ideal S16384 .f32 := m ((c.tc : Thread nD τ).loc main_arg9)
def wbR (c : Dev nD) : FVec Ideal S32x16384 .f32 := m ((c.tc : Thread nD τ).loc main_arg10)
def bbR (c : Dev nD) : FVec Ideal S32 .f32 := m ((c.tc : Thread nD τ).loc main_arg11)

/-- The result as the dense stretch's operations of the node row and the four weight arrays. -/
theorem result_term (c : Dev nD) :
    (ends m c main_v150 : FVec Ideal S1x32 .f32)
      = Host.tanh (addf (Host.dotGeneral dot_S1x16384_S16384x32_S1x32_1_0_0_1_n_n none
          (Host.tanh (addf (Host.dotGeneral dot_S1x8192_S8192x16384_S1x16384_1_0_0_1_n_n none (nodeRow m c)
              (transpose S8192x16384 [1, 0] (waR m c) transposes_S16384x8192_S8192x16384_1_0))
            (broadcastInDim S1x16384 ![1] bcast_S16384_S1x16384_1 (baR m c))))
          (transpose S16384x32 [1, 0] (wbR m c) transposes_S32x16384_S16384x32_1_0))
        (broadcastInDim S1x32 ![1] bcast_S32_S1x32_1 (bbR m c))) := by
  unfold ends
  after_results
  rw [mid_arg8, mid_arg9, mid_arg10, mid_arg11]
  rfl

/-- A bias vector laid along the one row: entry (0, k) is entry k. -/
theorem bias_apply {n : ℕ} (h : (⟨1, ![n]⟩ : Shape).BroadcastsInDim ⟨2, ![1, n]⟩ ![1]) (v : (⟨1, ![n]⟩ : Shape).Idx → EReal)
    (k : Fin n) : broadcastInDim ⟨2, ![1, n]⟩ ![1] h v (ix2 0 k) = v (ix1 k) :=
  broadcastInDim_apply _ h v (ix2 0 k) (ix1 k) (fun a => match a with
    | ⟨0, _⟩ => by
      show k.val = if n = 1 then 0 else k.val
      split
      · have := k.isLt; omega
      · rfl)

/-- The host's tanh of an array, at an index. -/
theorem hostTanh_apply {s : Shape} (v : FVec Ideal s .f32) (i : s.Idx) : Host.tanh v i = Ideal.tanh (v i) := rfl

/-- The two dense layers in the host's spelling, read at entry (0, o), over any arrays. -/
theorem dense_apply (X : FVec Ideal S1x8192 .f32) (Wa : FVec Ideal S16384x8192 .f32) (ba : FVec Ideal S16384 .f32)
    (Wb : FVec Ideal S32x16384 .f32) (bb : FVec Ideal S32 .f32) (o : Fin 32) :
    Host.tanh (addf (Host.dotGeneral dot_S1x16384_S16384x32_S1x32_1_0_0_1_n_n none
          (Host.tanh (addf (Host.dotGeneral dot_S1x8192_S8192x16384_S1x16384_1_0_0_1_n_n none X
              (transpose S8192x16384 [1, 0] Wa transposes_S16384x8192_S8192x16384_1_0))
            (broadcastInDim S1x16384 ![1] bcast_S16384_S1x16384_1 ba)))
          (transpose S16384x32 [1, 0] Wb transposes_S32x16384_S16384x32_1_0))
        (broadcastInDim S1x32 ![1] bcast_S32_S1x32_1 bb)) (ix2 0 o)
      = Mlp.out (fun q => X (ix2 0 q)) (fun k q => Wa (ix2 k q)) (fun k => ba (ix1 k))
          (fun o k => Wb (ix2 o k)) (fun o => bb (ix1 o)) o := by
  rw [hostTanh_apply, addf_apply,
    dotGeneral_transposed dot_S1x16384_S16384x32_S1x32_1_0_0_1_n_n.wf dot_S1x16384_S16384x32_S1x32_1_0_0_1_n_n rfl,
    bias_apply, rowsDot_apply]
  unfold Mlp.out
  refine congrArg (fun z => Ideal.tanh (z + bb (ix1 o))) ?_
  refine Finset.sum_congr rfl fun k _ => ?_
  rw [hostTanh_apply, addf_apply,
    dotGeneral_transposed dot_S1x8192_S8192x16384_S1x16384_1_0_0_1_n_n.wf dot_S1x8192_S8192x16384_S1x16384_1_0_0_1_n_n rfl,
    bias_apply, rowsDot_apply]
  rfl

/-- Entry o of the reference's result is output o of the perceptron on the node row. -/
theorem result_apply (c : Dev nD) (o : Fin 32) :
    (ends m c main_v150 : FVec Ideal S1x32 .f32) (ix2 0 o)
      = Mlp.out (fun q => nodeRow m c (ix2 0 q))
          (fun k q => waR m c (ix2 k q)) (fun k => baR m c (ix1 k))
          (fun o k => wbR m c (ix2 o k)) (fun o => bbR m c (ix1 o)) o :=
  (congrFun (result_term m c) (ix2 0 o)).trans (dense_apply _ _ _ _ _ o)

end Cert.ReferenceIdeal.RefTail

end
-- ==== Proof.GcnAgree.lean ====
/-
  The two programs compute the same row of node values.

  Both programs run the same three graph-convolution layers on the host: gather the endpoints' normalisation factors,
  multiply, apply the layer's weights, gather the source rows, scale, scatter-add into the destination rows, add the
  bias (and clamp at zero after the first two layers).  The kernel's program computes the degree normalisation once
  and uses it in all three layers; the reference recomputes it, by the same operations of the same edge list, before
  every layer.  Operation by operation the two rows of 8192 node values are therefore the same function of the
  argument arrays: unfolding both folds of host operations leaves two terms that agree symbol by symbol once the
  argument arrays are identified.
-/
import proofs.«127486_j46256797778021_2_alg».proof.Proof.Gen.KernelIdeal.Frame
import proofs.«127486_j46256797778021_2_alg».proof.Proof.RefRun
import Idealize.ShloMosaic.PureOps.Ideal

noncomputable section

open Idealize.ShloMosaic Idealize.ShloMosaic.TcCoe Idealize.SL.Sem Idealize.ShloMosaic.StableHlo

namespace Cert.Agree

/-- Two index vectors joined end to end: the edge endpoints followed by the node numbers. -/
def joined {α : Type} (a : (⟨1, ![524288]⟩ : Shape).Idx → α) (b : (⟨1, ![8192]⟩ : Shape).Idx → α)
    (h : Shape.Concatenates [⟨1, ![524288]⟩, ⟨1, ![8192]⟩] ⟨1, ![532480]⟩ 0) : (⟨1, ![532480]⟩ : Shape).Idx → α :=
  concatenate ⟨1, ![532480]⟩ 0 [⟨⟨1, ![524288]⟩, a⟩, ⟨⟨1, ![8192]⟩, b⟩] h

/-- The kernel's program joins its two index vectors by `joined`. -/
theorem joined_K :
    (fun (a : Cert.KernelIdeal.S524288.Idx → BitVec 32) (b : Cert.KernelIdeal.S8192.Idx → BitVec 32) =>
      concatenate Cert.KernelIdeal.S532480 0 [⟨Cert.KernelIdeal.S524288, a⟩, ⟨Cert.KernelIdeal.S8192, b⟩] Cert.KernelIdeal.Gen.concatenates_S524288_S8192_S532480_d0)
      = fun a b => joined a b Cert.KernelIdeal.Gen.concatenates_S524288_S8192_S532480_d0 := rfl

/-- The reference joins its two index vectors by `joined`. -/
theorem joined_R :
    (fun (a : Cert.ReferenceIdeal.S524288.Idx → BitVec 32) (b : Cert.ReferenceIdeal.S8192.Idx → BitVec 32) =>
      concatenate Cert.ReferenceIdeal.S532480 0 [⟨Cert.ReferenceIdeal.S524288, a⟩, ⟨Cert.ReferenceIdeal.S8192, b⟩] Cert.ReferenceIdeal.Gen.concatenates_S524288_S8192_S532480_d0)
      = fun a b => joined a b Cert.ReferenceIdeal.Gen.concatenates_S524288_S8192_S532480_d0 := rfl

set_option maxRecDepth 16384 in
set_option maxHeartbeats 400000000 in
/-- From argument arrays that agree, the reference's node row after its graph-convolution stretch is the row the
    kernel's region finds. -/
theorem node_row
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : launchContents m' c (Proc.devRef .tc Cert.ReferenceIdeal.main_arg0) = m (c, Proc.devRef .tc Cert.KernelIdeal.main_arg0))
    (h1 : launchContents m' c (Proc.devRef .tc Cert.ReferenceIdeal.main_arg1) = m (c, Proc.devRef .tc Cert.KernelIdeal.main_arg1))
    (h2 : launchContents m' c (Proc.devRef .tc Cert.ReferenceIdeal.main_arg2) = m (c, Proc.devRef .tc Cert.KernelIdeal.main_arg2))
    (h3 : launchContents m' c (Proc.devRef .tc Cert.ReferenceIdeal.main_arg3) = m (c, Proc.devRef .tc Cert.KernelIdeal.main_arg3))
    (h4 : launchContents m' c (Proc.devRef .tc Cert.ReferenceIdeal.main_arg4) = m (c, Proc.devRef .tc Cert.KernelIdeal.main_arg4))
    (h5 : launchContents m' c (Proc.devRef .tc Cert.ReferenceIdeal.main_arg5) = m (c, Proc.devRef .tc Cert.KernelIdeal.main_arg5))
    (h6 : launchContents m' c (Proc.devRef .tc Cert.ReferenceIdeal.main_arg6) = m (c, Proc.devRef .tc Cert.KernelIdeal.main_arg6))
    (h7 : launchContents m' c (Proc.devRef .tc Cert.ReferenceIdeal.main_arg7) = m (c, Proc.devRef .tc Cert.KernelIdeal.main_arg7)) :
    Cert.ReferenceIdeal.RefRun.mid m' c (Proc.devRef .tc Cert.ReferenceIdeal.main_v140) = Cert.KernelIdeal.Gen.V m c Cert.KernelIdeal.main_v86 := by
  unfold Cert.ReferenceIdeal.RefRun.mid
  dsimp only [Cert.ReferenceIdeal.RefOps.opsGcn]
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append]
  simp only [joined_K, joined_R]
  after_results_simp
  simp only [h0, h1, h2, h3, h4, h5, h6, h7]
  rfl

end Cert.Agree

end
-- ==== Proof.lean ====
/-
  The certificate's claims.

  The kernel's program and the reference compute the same numbers over the extended reals.  Both run the same three
  graph-convolution layers on the host and arrive at the same row x of 8192 node values (GcnAgree).  The reference
  then evaluates the two-layer perceptron tanh (Wb · tanh (Wa · x + ba) + bb) with each of its two products taken
  whole (RefTail).  The kernel streams the 16384 hidden units through a grid of 2 x 32 steps, 256 units a step: each
  step forms its 256 hidden units and adds their contribution to a running total of 32 numbers, one total per group of
  32 steps (Accumulate); the host adds the two totals, adds bb and takes tanh (KernelResult).  Regrouping a finite
  sum of extended reals into consecutive chunks and running totals that start from zero does not change it
  (MlpSums), so the two results agree entry by entry; finiteness of the inputs is never used.  The changes of float
  format inside the kernel are the identity on the extended reals, and the idealized kernel is the kernel's own text,
  so nothing is owed for the idealization.  The three programs run to completion with their arguments unchanged: the
  kernel's two programs by the generated frame, the reference as a straight line of host operations none of which
  writes an argument (RefRun).
-/
import proofs.«127486_j46256797778021_2_alg».proof.Defs
import proofs.«127486_j46256797778021_2_alg».proof.Proof.Gen.Kernel
import proofs.«127486_j46256797778021_2_alg».proof.Proof.Gen.Kernel.Skeleton
import proofs.«127486_j46256797778021_2_alg».proof.Proof.Gen.Kernel.Launch
import proofs.«127486_j46256797778021_2_alg».proof.Proof.Gen.Kernel.Points
import proofs.«127486_j46256797778021_2_alg».proof.Proof.Gen.Kernel.Frame
import proofs.«127486_j46256797778021_2_alg».proof.Proof.Gen.KernelIdeal
import proofs.«127486_j46256797778021_2_alg».proof.Proof.Gen.KernelIdeal.Skeleton
import proofs.«127486_j46256797778021_2_alg».proof.Proof.Gen.KernelIdeal.Launch
import proofs.«127486_j46256797778021_2_alg».proof.Proof.Gen.KernelIdeal.Points
import proofs.«127486_j46256797778021_2_alg».proof.Proof.Gen.KernelIdeal.Frame
import proofs.«127486_j46256797778021_2_alg».proof.Proof.Gen.ReferenceIdeal
import proofs.«127486_j46256797778021_2_alg».proof.Proof.Gen.Pre_finite_inputs
import proofs.«127486_j46256797778021_2_alg».proof.Proof.KernelResult
import proofs.«127486_j46256797778021_2_alg».proof.Proof.RefTail
import proofs.«127486_j46256797778021_2_alg».proof.Proof.GcnAgree
import Idealize.ShloMosaic.Adequacy
import Idealize.ShloMosaic.Init

set_option maxRecDepth 8192

noncomputable section

namespace Cert.Proof

open Idealize.ShloMosaic Idealize.ShloMosaic.TcCoe Idealize.SL.Sem Idealize.ShloMosaic.ValueIdx

/-- The reference runs to completion with its arguments unchanged. -/
theorem frame_ri : Cert.frame_ReferenceIdeal := fun m ρ _ =>
  (θ_run Cert.ReferenceIdeal.defs _ _).mono (fun _ h c => ⟨(h c _).trans (Cert.ReferenceIdeal.RefRun.kept_arg0 m c),
      (h c _).trans (Cert.ReferenceIdeal.RefRun.kept_arg1 m c),
      (h c _).trans (Cert.ReferenceIdeal.RefRun.kept_arg2 m c),
      (h c _).trans (Cert.ReferenceIdeal.RefRun.kept_arg3 m c),
      (h c _).trans (Cert.ReferenceIdeal.RefRun.kept_arg4 m c),
      (h c _).trans (Cert.ReferenceIdeal.RefRun.kept_arg5 m c),
      (h c _).trans (Cert.ReferenceIdeal.RefRun.kept_arg6 m c),
      (h c _).trans (Cert.ReferenceIdeal.RefRun.kept_arg7 m c),
      (h c _).trans (Cert.ReferenceIdeal.RefRun.kept_arg8 m c),
      (h c _).trans (Cert.ReferenceIdeal.RefRun.kept_arg9 m c),
      (h c _).trans (Cert.ReferenceIdeal.RefRun.kept_arg10 m c),
      (h c _).trans (Cert.ReferenceIdeal.RefRun.kept_arg11 m c)⟩)
    (Cert.ReferenceIdeal.RefRun.run (F := Ideal) m ρ)

section Kernel

open Cert.KernelIdeal Cert.KernelIdeal.Gen

/-- The idealized kernel's run with its result named: the result buffer ends at the host's last operations of the
    output array, the arguments end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v96)
          = Pipeline.afterTail₀ cfgs (dats m) 0 (V0 m) [hostOps1] c main_v96
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono (fun _ h c => ⟨(h c).2 main_v96 (Pipeline.mem_restRefs_of main_v96 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 1).trans (((dats m 0 c).arrAt_in 1 rfl _).trans ((A_eq m c 1).trans (V_main_arg8 m c))),
      ((h c).2 main_arg9 (Pipeline.mem_restRefs_of main_arg9 (by decide) (by decide))).trans (W_main_arg9 m (dats m) c),
      ((h c).1 3).trans (((dats m 0 c).arrAt_in 3 rfl _).trans ((A_eq m c 3).trans (V_main_arg10 m c))),
      ((h c).2 main_arg11 (Pipeline.mem_restRefs_of main_arg11 (by decide) (by decide))).trans (W_main_arg11 m (dats m) c)⟩)
    (run_main m ρ)

end Kernel

/-- From argument arrays that agree, the reference's result is the kernel's, entry by entry. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefRun.ends m' c Cert.ReferenceIdeal.main_v150
      = Pipeline.afterTail₀ Cert.KernelIdeal.cfgs (Cert.KernelIdeal.Gen.dats m) 0 (Cert.KernelIdeal.Gen.V0 m) [Cert.KernelIdeal.Gen.hostOps1] c Cert.KernelIdeal.main_v96 := by
  funext i
  obtain ⟨p, o, rfl⟩ : ∃ (p : Fin 1) (o : Fin 32), i = ix2 p o := ⟨i 0, i 1, eq_ix2 i⟩
  obtain rfl : p = 0 := Subsingleton.elim _ _
  refine (Cert.ReferenceIdeal.RefTail.result_apply m' c o).trans ?_
  refine Eq.trans ?_ (Cert.KernelIdeal.Result.result_apply m c o).symm
  rw [Mlp.outSplit_eq]
  have hx : Cert.ReferenceIdeal.RefTail.nodeRow m' c = Cert.KernelIdeal.Gen.V m c Cert.KernelIdeal.main_v86 :=
    Cert.Agree.node_row m m' c h0 h1 h2 h3 h4 h5 h6 h7
  have hwa : Cert.ReferenceIdeal.RefTail.waR m' c = Cert.KernelIdeal.Gen.V m c Cert.KernelIdeal.main_arg8 := h8.trans (Cert.KernelIdeal.Gen.V_main_arg8 m c).symm
  have hba : Cert.ReferenceIdeal.RefTail.baR m' c = Cert.KernelIdeal.Result.baK m c := h9
  have hwb : Cert.ReferenceIdeal.RefTail.wbR m' c = Cert.KernelIdeal.Gen.V m c Cert.KernelIdeal.main_arg10 := h10.trans (Cert.KernelIdeal.Gen.V_main_arg10 m c).symm
  have hbb : Cert.ReferenceIdeal.RefTail.bbR m' c = Cert.KernelIdeal.Result.bbK m c := h11
  have e1 : (fun q => Cert.ReferenceIdeal.RefTail.nodeRow m' c (ix2 0 q)) = Cert.KernelIdeal.Acc.xrow m c := funext fun q => congrFun hx _
  have e2 : (fun k q => Cert.ReferenceIdeal.RefTail.waR m' c (ix2 k q)) = Cert.KernelIdeal.Acc.wa m c := funext fun k => funext fun q => congrFun hwa _
  have e3 : (fun k => Cert.ReferenceIdeal.RefTail.baR m' c (ix1 k)) = Cert.KernelIdeal.Acc.bav m c :=
    funext fun k => (congrFun hba _).trans (Cert.KernelIdeal.Result.bav_eq m c k).symm
  have e4 : (fun o k => Cert.ReferenceIdeal.RefTail.wbR m' c (ix2 o k)) = Cert.KernelIdeal.Acc.wb m c := funext fun o => funext fun k => congrFun hwb _
  have e5 : (fun o => Cert.ReferenceIdeal.RefTail.bbR m' c (ix1 o)) = (fun o => Cert.KernelIdeal.Result.bbK m c (ix1 o)) := funext fun o => congrFun hbb _
  rw [e1, e2, e3, e4, e5]

/-- Run from memories that agree on the arguments, the idealized kernel and the idealized reference end with equal
    results and unchanged arguments. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v96,
    kernel_run m ρ, ?_⟩
  refine (θ_run Cert.ReferenceIdeal.defs _ _).mono (fun _ h c => ⟨(h c _).trans ?_, (h c _).trans (Cert.ReferenceIdeal.RefRun.kept_arg0 m' c), (h c _).trans (Cert.ReferenceIdeal.RefRun.kept_arg1 m' c), (h c _).trans (Cert.ReferenceIdeal.RefRun.kept_arg2 m' c), (h c _).trans (Cert.ReferenceIdeal.RefRun.kept_arg3 m' c), (h c _).trans (Cert.ReferenceIdeal.RefRun.kept_arg4 m' c), (h c _).trans (Cert.ReferenceIdeal.RefRun.kept_arg5 m' c), (h c _).trans (Cert.ReferenceIdeal.RefRun.kept_arg6 m' c), (h c _).trans (Cert.ReferenceIdeal.RefRun.kept_arg7 m' c), (h c _).trans (Cert.ReferenceIdeal.RefRun.kept_arg8 m' c), (h c _).trans (Cert.ReferenceIdeal.RefRun.kept_arg9 m' c), (h c _).trans (Cert.ReferenceIdeal.RefRun.kept_arg10 m' c), (h c _).trans (Cert.ReferenceIdeal.RefRun.kept_arg11 m' c)⟩)
    (Cert.ReferenceIdeal.RefRun.run (F := Ideal) m' ρ')
  obtain ⟨h0, h1, h2, h3, h4, h5, h6, h7, h8, h9, h10, h11⟩ := hagree c
  exact results_agree m m' c h0 h1 h2 h3 h4 h5 h6 h7 h8 h9 h10 h11

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
